-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x64 : Shape := ⟨3, ![8192, 1, 64]⟩
abbrev S8192x200x64 : Shape := ⟨3, ![8192, 200, 64]⟩
abbrev S64x64 : Shape := ⟨2, ![64, 64]⟩
abbrev S_ : Shape := ⟨0, ![]⟩

class Facts : Prop where
  bcast_S_S8192x1x64 : S_.BroadcastsInDim S8192x1x64 (![] : Fin 0 → Fin S8192x1x64.rank)
  reducesTo_S8192x1x64_S_d0_1_2 : S8192x1x64.ReducesTo [0, 1, 2] S_
  h_S_ : 0 < S_.numel
  bcast_S_S8192x200x64 : S_.BroadcastsInDim S8192x200x64 (![] : Fin 0 → Fin S8192x200x64.rank)
  reducesTo_S8192x200x64_S_d0_1_2 : S8192x200x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S8192x1x64 .f32) (main_arg1 : FVec F S8192x200x64 .f32) (main_arg2 : FVec F S64x64 .f32) (main_arg3 : FVec F S64x64 .f32) (main_arg4 : FVec F S64x64 .f32) : IVec S_ 1 :=
  let main_v0 : FVec F S8192x1x64 .f32 := Host.absf main_arg0
  let main_cst : FVec F S_ .f32 := constant S_ .f32 0x7F800000#32
  let main_v1 : FVec F S8192x1x64 .f32 := broadcastInDim S8192x1x64 ![] bcast_S_S8192x1x64 main_cst
  let main_v2 : IVec S8192x1x64 1 := cmpf .olt main_v0 main_v1
  let main_c : IVec S_ 1 := constantI S_ 1 1#1
  let main_v3 : IVec S_ 1 := (fun x v => Host.reduce IntOp.andi x v reducesTo_S8192x1x64_S_d0_1_2 h_S_) main_v2 main_c
  let main_v4 : FVec F S8192x200x64 .f32 := Host.absf main_arg1
  let main_cst_0 : FVec F S_ .f32 := constant S_ .f32 0x7F800000#32
  let main_v5 : FVec F S8192x200x64 .f32 := broadcastInDim S8192x200x64 ![] bcast_S_S8192x200x64 main_cst_0
  let main_v6 : IVec S8192x200x64 1 := cmpf .olt main_v4 main_v5
  let main_c_1 : IVec S_ 1 := constantI S_ 1 1#1
  let main_v7 : IVec S_ 1 := (fun x v => Host.reduce IntOp.andi x v reducesTo_S8192x200x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x1x64 : Shape := ⟨3, ![8192, 1, 64]⟩
abbrev S8192x200x64 : Shape := ⟨3, ![8192, 200, 64]⟩
abbrev S64x64 : Shape := ⟨2, ![64, 64]⟩
abbrev S8192x64 : Shape := ⟨2, ![8192, 64]⟩
abbrev S64x1x64 : Shape := ⟨3, ![64, 1, 64]⟩
abbrev S64x200x64 : Shape := ⟨3, ![64, 200, 64]⟩
abbrev S12800x64 : Shape := ⟨2, ![12800, 64]⟩
abbrev S4x64 : Shape := ⟨2, ![4, 64]⟩
abbrev S1x4x64 : Shape := ⟨3, ![1, 4, 64]⟩
abbrev S64x4x64 : Shape := ⟨3, ![64, 4, 64]⟩
abbrev S64x4x200 : Shape := ⟨3, ![64, 4, 200]⟩
abbrev S64x4 : Shape := ⟨2, ![64, 4]⟩
abbrev S64x4x1 : Shape := ⟨3, ![64, 4, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1x64, .f32⟩
  | .hbm, ⟨1, _⟩ => ⟨S8192x200x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S8192x64, .f32⟩
  | .local _ .vmem, ⟨0, _⟩ => ⟨S64x1x64, .f32⟩
  | .local _ .vmem, ⟨1, _⟩ => ⟨S64x1x64, .f32⟩
  | .local _ .vmem, ⟨2, _⟩ => ⟨S64x200x64, .f32⟩
  | .local _ .vmem, ⟨3, _⟩ => ⟨S64x200x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | _, _ => ⟨S8192x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x1x64_S64x1x64_0_0_0 : ∀ a, (![0, 0, 0] : Fin 3 → Nat) a + S64x1x64.size a ≤ S64x1x64.size a
  h_S64x1x64 : 0 < S64x1x64.numel
  shapeCasts_S64x1x64_S64x64 : S64x1x64.ShapeCasts S64x64
  inb_S64x200x64_S64x200x64_0_0_0 : ∀ a, (![0, 0, 0] : Fin 3 → Nat) a + S64x200x64.size a ≤ S64x200x64.size a
  h_S64x200x64 : 0 < S64x200x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S64x200x64_S12800x64 : S64x200x64.ShapeCasts S12800x64
  shapeCasts_S12800x64_S64x200x64 : S12800x64.ShapeCasts S64x200x64
  iota_S4x64_d1_w32 : S4x64.Iotas .tc 32 [1]
  iota_S4x64_d0_w32 : S4x64.Iotas .tc 32 [0]
  natLt_1_32 : 1 < 32
  shapeCasts_S64x64_S64x1x64 : S64x64.ShapeCasts S64x1x64
  shapeCasts_S4x64_S1x4x64 : S4x64.ShapeCasts S1x4x64
  broadcasts_S64x1x64_S64x4x64 : S64x1x64.Broadcasts S64x4x64
  broadcasts_S1x4x64_S64x4x64 : S1x4x64.Broadcasts S64x4x64
  reduces_S64x4x200_S64x4 : S64x4x200.Reduces [2] S64x4
  shapeCasts_S64x4_S64x4x1 : S64x4.ShapeCasts S64x4x1
  broadcasts_S64x4x1_S64x4x200 : S64x4x1.Broadcasts S64x4x200
  reduces_S64x4x64_S64x64 : S64x4x64.Reduces [1] S64x64
  dot_S64x64_S64x64_S64x64_1_0_0_1_n_n_wf : DotDims.WF S64x64 S64x64 S64x64 [1] [0] [0] [1] [] []
  dot_S12800x64_S64x64_S12800x64_1_0_0_1_n_n_wf : DotDims.WF S12800x64 S64x64 S12800x64 [1] [0] [0] [1] [] []
  dot_S64x4x64_S64x200x64_S64x4x200_2_2_1_1_0_0_wf : DotDims.WF S64x4x64 S64x200x64 S64x4x200 [2] [2] [1] [1] [0] [0]
  dot_S64x4x200_S64x200x64_S64x4x64_2_1_1_2_0_0_wf : DotDims.WF S64x4x200 S64x200x64 S64x4x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x64.size a ≤ S8192x1x64.size a
  hwx0_0 : ∀ i : grid0.Coords, EltTy.bits .f32 = 32 ∨ (Rect.block (s := S8192x1x64) S64x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200x64.size a ≤ S8192x200x64.size a
  hwx0_1 : ∀ i : grid0.Coords, EltTy.bits .f32 = 32 ∨ (Rect.block (s := S8192x200x64) S64x200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S8192x64.size a
  hwx0_5 : ∀ i : grid0.Coords, EltTy.bits .f32 = 32 ∨ (Rect.block (s := S8192x64) S64x64.size (cc0_transform_5 i) (hinb0_5 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def dot_S64x4x64_S64x200x64_S64x4x200_2_2_1_1_0_0 : DotDims S64x4x64 S64x200x64 S64x4x200 where
  lhsContracting := [2]
  rhsContracting := [2]
  lhsNonContracting := [1]
  rhsNonContracting := [1]
  lhsBatch := [0]
  rhsBatch := [0]
  wf := dot_S64x4x64_S64x200x64_S64x4x200_2_2_1_1_0_0_wf
def dot_S64x4x200_S64x200x64_S64x4x64_2_1_1_2_0_0 : DotDims S64x4x200 S64x200x64 S64x4x64 where
  lhsContracting := [2]
  rhsContracting := [1]
  lhsNonContracting := [1]
  rhsNonContracting := [2]
  lhsBatch := [0]
  rhsBatch := [0]
  wf := dot_S64x4x200_S64x200x64_S64x4x64_2_1_1_2_0_0_wf

abbrev win0_0 : Pipeline.Window sig grid0 :=
  Pipeline.Window.ofSpec (Memref.whole main_arg0) S64x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1x64 : Shape := ⟨3, ![8192, 1, 64]⟩
abbrev S8192x200x64 : Shape := ⟨3, ![8192, 200, 64]⟩
abbrev S64x64 : Shape := ⟨2, ![64, 64]⟩
abbrev S8192x1x4x16 : Shape := ⟨4, ![8192, 1, 4, 16]⟩
abbrev S4x8192x1x16 : Shape := ⟨4, ![4, 8192, 1, 16]⟩
abbrev S8192x200x4x16 : Shape := ⟨4, ![8192, 200, 4, 16]⟩
abbrev S4x8192x200x16 : Shape := ⟨4, ![4, 8192, 200, 16]⟩
abbrev S4x8192x1x200 : Shape := ⟨4, ![4, 8192, 1, 200]⟩
abbrev S_ : Shape := ⟨0, ![]⟩
abbrev S4x8192x1 : Shape := ⟨3, ![4, 8192, 1]⟩
abbrev S4x8192x1x1 : Shape := ⟨4, ![4, 8192, 1, 1]⟩
abbrev S8192x64 : Shape := ⟨2, ![8192, 64]⟩

abbrev nBuf : Space → Nat
  | .hbm => 35
  | .vmem => 0
  | .smem => 0
  | _ => 0

abbrev bufTy : (tb : Table) → Fin (tcTables nBuf tb) → BufTy
  | .hbm, ⟨0, _⟩ => ⟨S8192x1x64, .f32⟩
  | .hbm, ⟨1, _⟩ => ⟨S8192x200x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S8192x1x64, .f32⟩
  | .hbm, ⟨6, _⟩ => ⟨S8192x200x64, .f32⟩
  | .hbm, ⟨7, _⟩ => ⟨S8192x200x64, .f32⟩
  | .hbm, ⟨8, _⟩ => ⟨S8192x1x4x16, .f32⟩
  | .hbm, ⟨9, _⟩ => ⟨S4x8192x1x16, .f32⟩
  | .hbm, ⟨10, _⟩ => ⟨S8192x200x4x16, .f32⟩
  | .hbm, ⟨11, _⟩ => ⟨S4x8192x200x16, .f32⟩
  | .hbm, ⟨12, _⟩ => ⟨S8192x200x4x16, .f32⟩
  | .hbm, ⟨13, _⟩ => ⟨S4x8192x200x16, .f32⟩
  | .hbm, ⟨14, _⟩ => ⟨S4x8192x1x200, .f32⟩
  | .hbm, ⟨15, _⟩ => ⟨S_, .f32⟩
  | .hbm, ⟨16, _⟩ => ⟨S4x8192x1x200, .f32⟩
  | .hbm, ⟨17, _⟩ => ⟨S4x8192x1x200, .f32⟩
  | .hbm, ⟨18, _⟩ => ⟨S_, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1x1, .f32⟩
  | .hbm, ⟨24, _⟩ => ⟨S4x8192x1x200, .f32⟩
  | .hbm, ⟨25, _⟩ => ⟨S4x8192x1x200, .f32⟩
  | .hbm, ⟨26, _⟩ => ⟨S4x8192x1x200, .f32⟩
  | .hbm, ⟨27, _⟩ => ⟨S_, .f32⟩
  | .hbm, ⟨28, _⟩ => ⟨S4x8192x1, .f32⟩
  | .hbm, ⟨29, _⟩ => ⟨S4x8192x1x1, .f32⟩
  | .hbm, ⟨30, _⟩ => ⟨S4x8192x1x200, .f32⟩
  | .hbm, ⟨31, _⟩ => ⟨S4x8192x1x200, .f32⟩
  | .hbm, ⟨32, _⟩ => ⟨S4x8192x1x16, .f32⟩
  | .hbm, ⟨33, _⟩ => ⟨S8192x1x4x16, .f32⟩
  | .hbm, ⟨34, _⟩ => ⟨S8192x64, .f32⟩
  | _, _ => ⟨S8192x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S8192x1x64_S8192x1x4x16 : S8192x1x64.ShapeCasts S8192x1x4x16
  transposes_S8192x1x4x16_S4x8192x1x16_2_0_1_3 : S8192x1x4x16.Transposes [2, 0, 1, 3] S4x8192x1x16
  shapeCasts_S8192x200x64_S8192x200x4x16 : S8192x200x64.ShapeCasts S8192x200x4x16
  transposes_S8192x200x4x16_S4x8192x200x16_2_0_1_3 : S8192x200x4x16.Transposes [2, 0, 1, 3] S4x8192x200x16
  bcast_S_S4x8192x1x200 : S_.BroadcastsInDim S4x8192x1x200 (![] : Fin 0 → Fin S4x8192x1x200.rank)
  reducesTo_S4x8192x1x200_S4x8192x1_d3 : S4x8192x1x200.ReducesTo [3] S4x8192x1
  h_S_ : 0 < S_.numel
  bcast_S_S4x8192x1 : S_.BroadcastsInDim S4x8192x1 (![] : Fin 0 → Fin S4x8192x1.rank)
  bcast_S4x8192x1_S4x8192x1x1_0_1_2 : S4x8192x1.BroadcastsInDim S4x8192x1x1 (![0, 1, 2] : Fin 3 → Fin S4x8192x1x1.rank)
  bcast_S4x8192x1x1_S4x8192x1x200_0_1_2_3 : S4x8192x1x1.BroadcastsInDim S4x8192x1x200 (![0, 1, 2, 3] : Fin 4 → Fin S4x8192x1x200.rank)
  transposes_S4x8192x1x16_S8192x1x4x16_1_2_0_3 : S4x8192x1x16.Transposes [1, 2, 0, 3] S8192x1x4x16
  shapeCasts_S8192x1x4x16_S8192x64 : S8192x1x4x16.ShapeCasts S8192x64
  dot_S8192x1x64_S64x64_S8192x1x64_2_0_01_1_n_n_wf : DotDims.WF S8192x1x64 S64x64 S8192x1x64 [2] [0] [0, 1] [1] [] []
  dot_S8192x200x64_S64x64_S8192x200x64_2_0_01_1_n_n_wf : DotDims.WF S8192x200x64 S64x64 S8192x200x64 [2] [0] [0, 1] [1] [] []
  dot_S4x8192x1x16_S4x8192x200x16_S4x8192x1x200_3_3_2_2_01_01_wf : DotDims.WF S4x8192x1x16 S4x8192x200x16 S4x8192x1x200 [3] [3] [2] [2] [0, 1] [0, 1]
  dot_S4x8192x1x200_S4x8192x200x16_S4x8192x1x16_3_2_2_3_01_01_wf : DotDims.WF S4x8192x1x200 S4x8192x200x16 S4x8192x1x16 [3] [2] [2] [3] [0, 1] [0, 1]

variable [Facts₀]

def dot_S8192x1x64_S64x64_S8192x1x64_2_0_01_1_n_n : DotDims S8192x1x64 S64x64 S8192x1x64 where
  lhsContracting := [2]
  rhsContracting := [0]
  lhsNonContracting := [0, 1]
  rhsNonContracting := [1]
  lhsBatch := []
  rhsBatch := []
  wf := dot_S8192x1x64_S64x64_S8192x1x64_2_0_01_1_n_n_wf
def dot_S8192x200x64_S64x64_S8192x200x64_2_0_01_1_n_n : DotDims S8192x200x64 S64x64 S8192x200x64 where
  lhsContracting := [2]
  rhsContracting := [0]
  lhsNonContracting := [0, 1]
  rhsNonContracting := [1]
  lhsBatch := []
  rhsBatch := []
  wf := dot_S8192x200x64_S64x64_S8192x200x64_2_0_01_1_n_n_wf
def dot_S4x8192x1x16_S4x8192x200x16_S4x8192x1x200_3_3_2_2_01_01 : DotDims S4x8192x1x16 S4x8192x200x16 S4x8192x1x200 where
  lhsContracting := [3]
  rhsContracting := [3]
  lhsNonContracting := [2]
  rhsNonContracting := [2]
  lhsBatch := [0, 1]
  rhsBatch := [0, 1]
  wf := dot_S4x8192x1x16_S4x8192x200x16_S4x8192x1x200_3_3_2_2_01_01_wf
def dot_S4x8192x1x200_S4x8192x200x16_S4x8192x1x16_3_2_2_3_01_01 : DotDims S4x8192x1x200 S4x8192x200x16 S4x8192x1x16 where
  lhsContracting := [3]
  rhsContracting := [2]
  lhsNonContracting := [2]
  rhsNonContracting := [3]
  lhsBatch := [0, 1]
  rhsBatch := [0, 1]
  wf := dot_S4x8192x1x200_S4x8192x200x16_S4x8192x1x16_3_2_2_3_01_01_wf

class Facts : Prop extends Facts₀ where

variable [Facts]
-- ==== Proof.Spec.lean ====
/-
  Single-query multi-head attention, as one function of the five argument arrays.

  For a batch row `b` the query row `x0[b, 0, ·]` (64 entries) and each of the 200 action rows `x1[b, k, ·]` are
  projected by the 64 × 64 matrices `x2` (queries), `x3` (keys) and `x4` (values). The 64 projected columns are four
  heads of sixteen columns each: column `16 h + e` is head `h`'s column `e`. Head `h`'s score of action `k` is the dot
  product of the query's and the key's sixteen columns of that head, divided by 8; the scores of a head are turned
  into weights by the softmax over the 200 actions (shifted by their maximum); and output column `c`, which belongs to
  head `c / 16`, is that head's weighted sum of the values' column `c`.

  Everything is stated on the extended reals, with the two float literals the programs share kept as patterns
  (`0x41000000` is 8, `0xFF800000` is -∞).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- Head `h`'s column `e` among the 64 projected columns: `16 h + e`. -/
def headCol (h : Fin 4) (e : Fin 16) : Fin 64 := ⟨h.val * 16 + e.val, by have := h.isLt; have := e.isLt; omega⟩

/-- The head a projected column belongs to: `c / 16`. -/
def headOf (c : Fin 64) : Fin 4 := ⟨c.val / 16, by have := c.isLt; omega⟩

/-- A row `a` of 64 entries times the 64 × 64 matrix `W`, at column `d`. -/
def proj (a : Fin 64 → EReal) (W : (⟨2, ![64, 64]⟩ : Shape).Idx → EReal) (d : Fin 64) : EReal :=
  ∑ j : Fin 64, a j * W (ix2 j d)

/-- Head `h`'s score of action `k`: the dot product over the head's sixteen columns, divided by 8. -/
def score (q : Fin 64 → EReal) (kk : Fin 200 → Fin 64 → EReal) (h : Fin 4) (k : Fin 200) : EReal :=
  Ideal.div (∑ e : Fin 16, q (headCol h e) * kk k (headCol h e)) (Ideal.ofBits .f32 0x41000000#32)

/-- The maximum of 200 scores, folded from -∞. -/
def rowMax (s : Fin 200 → EReal) : EReal :=
  (Finset.univ : Finset (Fin 200)).fold max (Ideal.ofBits .f32 0xFF800000#32) s

/-- The softmax weight of action `k`: `exp (s k - max s)` over the sum of these. -/
def softmax (s : Fin 200 → EReal) (k : Fin 200) : EReal :=
  Ideal.div (Ideal.exp (s k - rowMax s)) (∑ k' : Fin 200, Ideal.exp (s k' - rowMax s))

/-- Output column `c` from the projected query `q`, keys `kk` and values `vv`: the weights of head `c / 16` applied to
    the values' column `c`. -/
def attend (q : Fin 64 → EReal) (kk vv : Fin 200 → Fin 64 → EReal) (c : Fin 64) : EReal :=
  ∑ k : Fin 200, softmax (score q kk (headOf c)) k * vv k c

/-- The result at batch row `b`, column `c`. -/
def resultAt (x0 : (⟨3, ![8192, 1, 64]⟩ : Shape).Idx → EReal) (x1 : (⟨3, ![8192, 200, 64]⟩ : Shape).Idx → EReal)
    (x2 x3 x4 : (⟨2, ![64, 64]⟩ : Shape).Idx → EReal) (b : Fin 8192) (c : Fin 64) : EReal :=
  attend (proj (fun j => x0 (ix3 b 0 j)) x2) (fun k => proj (fun j => x1 (ix3 b k j)) x3)
    (fun k => proj (fun j => x1 (ix3 b k j)) x4) c

/-- The whole result array. -/
def result (x0 : (⟨3, ![8192, 1, 64]⟩ : Shape).Idx → EReal) (x1 : (⟨3, ![8192, 200, 64]⟩ : Shape).Idx → EReal)
    (x2 x3 x4 : (⟨2, ![64, 64]⟩ : Shape).Idx → EReal) : (⟨2, ![8192, 64]⟩ : Shape).Idx → EReal :=
  fun i => resultAt x0 x1 x2 x3 x4 (i 0) (i 1)

end Cert.Attention

end
-- ==== Proof.HeadMath.lean ====
/-
  The two identities behind computing all four heads at once with a 0/1 indicator.

  Write `ind h d` for the indicator that column `d` of the 64 belongs to head `h` (`d / 16 = h`). Then
  * a dot product over all 64 columns of `q d * ind h d` against a key row is the dot product over head `h`'s sixteen
    columns only (the other 48 terms are `0`), and multiplying it by 1/8 is dividing it by 8;
  * a sum over the four heads of `g h * ind h c` picks out `g (c / 16)`.
  Both hold on the extended reals with no finiteness assumption: only `0 * x = 0`, `x * 1 = x` and `x + 0 = x`
  are used.
-/
import proofs.«173114_j42494406426931_2_alg».proof.Proof.Spec

noncomputable section

namespace Cert.Attention

open Idealize.ShloMosaic

/-- The indicator that column `d` belongs to head `h`. -/
def headInd (h : Fin 4) (d : Fin 64) : EReal := if d.val / 16 = h.val then 1 else 0

/-- The 64 columns are the four heads' sixteen columns each. -/
def headEquiv : Fin 4 × Fin 16 ≃ Fin 64 where
  toFun p := headCol p.1 p.2
  invFun d := (headOf d, ⟨d.val % 16, Nat.mod_lt _ (by decide)⟩)
  left_inv := by
    rintro ⟨h, e⟩
    have hh := h.isLt; have he := e.isLt
    refine Prod.ext (Fin.ext ?_) (Fin.ext ?_)
    · show (h.val * 16 + e.val) / 16 = h.val; omega
    · show (h.val * 16 + e.val) % 16 = e.val; omega
  right_inv := by
    intro d
    refine Fin.ext ?_
    show d.val / 16 * 16 + d.val % 16 = d.val
    omega

/-- A sum over the 64 columns, head by head. -/
theorem sum_cols (f : Fin 64 → EReal) : ∑ d : Fin 64, f d = ∑ h : Fin 4, ∑ e : Fin 16, f (headCol h e) := by
  rw [← headEquiv.sum_comp, Fintype.sum_prod_type]
  rfl

theorem headInd_headCol (h h' : Fin 4) (e : Fin 16) : headInd h (headCol h' e) = if h' = h then 1 else 0 := by
  unfold headInd headCol
  have he := e.isLt
  have : (h'.val * 16 + e.val) / 16 = h'.val := by omega
  show (if (h'.val * 16 + e.val) / 16 = h.val then (1 : EReal) else 0) = _
  rw [this]
  by_cases hh : h' = h
  · rw [if_pos hh, if_pos (congrArg Fin.val hh)]
  · rw [if_neg hh, if_neg (fun hv => hh (Fin.ext hv))]

/-- The indicator-weighted dot product over all 64 columns is the dot product over the head's own columns. -/
theorem masked_dot (q kr : Fin 64 → EReal) (h : Fin 4) :
    ∑ d : Fin 64, (q d * headInd h d) * kr d = ∑ e : Fin 16, q (headCol h e) * kr (headCol h e) := by
  rw [sum_cols]
  rw [Finset.sum_eq_single h]
  · refine Finset.sum_congr rfl fun e _ => ?_
    rw [headInd_headCol, if_pos rfl, mul_one]
  · intro h' _ hne
    refine Finset.sum_eq_zero fun e _ => ?_
    rw [headInd_headCol, if_neg hne, mul_zero, zero_mul]
  · intro hn; exact absurd (Finset.mem_univ h) hn

/-- The pattern `0x41000000` is 8. -/
theorem ofBits_eight : Ideal.ofBits .f32 0x41000000#32 = ((8 : ℝ) : EReal) := by
  simp [Ideal.ofBits, Ideal.ieee, -EReal.coe_mul]; norm_num

/-- The pattern `0x3E000000` is 1/8. -/
theorem ofBits_eighth : Ideal.ofBits .f32 0x3E000000#32 = ((1 / 8 : ℝ) : EReal) := by
  simp [Ideal.ofBits, Ideal.ieee, -EReal.coe_mul]; norm_num

/-- Multiplying by 1/8 is dividing by 8, on every extended real. -/
theorem mul_eighth (x : EReal) :
    x * Ideal.ofBits .f32 0x3E000000#32 = Ideal.div x (Ideal.ofBits .f32 0x41000000#32) := by
  rw [ofBits_eight, ofBits_eighth, Ideal.div_coe (by norm_num : (8 : ℝ) ≠ 0)]

/-- The score computed with the indicator over all 64 columns and the factor 1/8 is the head's score. -/
theorem masked_score (q : Fin 64 → EReal) (kk : Fin 200 → Fin 64 → EReal) (h : Fin 4) (k : Fin 200) :
    (∑ d : Fin 64, (q d * headInd h d) * kk k d) * Ideal.ofBits .f32 0x3E000000#32 = score q kk h k := by
  rw [masked_dot, mul_eighth]
  rfl

/-- Summing `g h * ind h c` over the heads picks the head of column `c`. -/
theorem select_head (g : Fin 4 → EReal) (c : Fin 64) : ∑ h : Fin 4, g h * headInd h c = g (headOf c) := by
  rw [Finset.sum_eq_single (headOf c)]
  · unfold headInd headOf
    rw [if_pos rfl, mul_one]
  · intro h _ hne
    unfold headInd
    rw [if_neg (fun hv => hne (Fin.ext hv.symm)), mul_zero]
  · intro hn; exact absurd (Finset.mem_univ _) hn

end Cert.Attention

end
-- ==== Proof.HeadMask.lean ====
/-
  The kernel's head indicator. The body builds, from the lane number `d` (0 … 63) and the row number `h` (0 … 3) of a
  4 × 64 integer vector, the word `floor(d / 16) == h` (the floor division spelled with the signed quotient, the
  remainder and the signs, as integer arithmetic prints it), widens it to 32 bits and converts it to a float. At every
  (h, d) the resulting float is 1 when column `d` belongs to head `h` and 0 otherwise.
-/
import proofs.«173114_j42494406426931_2_alg».proof.Proof.Gen.KernelIdeal.Skeleton
import proofs.«173114_j42494406426931_2_alg».proof.Proof.HeadMath
import Idealize.ShloMosaic.Lib.ValueIdx

noncomputable section

namespace Cert.Attention.Kernel

open Idealize.ShloMosaic Idealize.ShloMosaic.ValueIdx Cert.KernelIdeal Cert.KernelIdeal.Gen Cert.Attention

/-- The indicator word from the row word and the lane word: `floor(lane / 16) == row`, widened to 32 bits. -/
def headWord (rowW laneW : BitVec 32) : BitVec 32 :=
  let quot := IntOp.divsi .vector laneW 16#32
  let signsDiffer := IntOp.cmpi .ne
    (IntOp.subi ((IntOp.cmpi .sgt laneW 0#32).setWidth 32) ((IntOp.cmpi .slt laneW 0#32).setWidth 32))
    (Scalar.subi (Scalar.extui (Scalar.cmpi .sgt 16#32 0#32)) (Scalar.extui (Scalar.cmpi .slt 16#32 0#32)))
  let rem := IntOp.remsi .vector laneW 16#32
  (IntOp.cmpi .eq (Scalar.select (IntOp.andi signsDiffer (IntOp.cmpi .ne rem 0#32)) (IntOp.subi quot 1#32) quot) rowW).setWidth 32

/-- The indicator vector as the body computes it. -/
def headMask : FVec Ideal S4x64 .f32 :=
  sitofp .f32 (extui 32 (cmpi .eq (select (andi k0_pay7 (cmpi .ne k0_pay8 (broadcast S4x64 0#32)))
    (subi k0_pay6 (broadcast S4x64 1#32)) k0_pay6) (iota .tc S4x64 32 [0] iota_S4x64_d0_w32)) natLt_1_32)

/-- The indicator word at every row and lane: decided over the 4 × 64 positions. -/
theorem headWord_eq : ∀ (h : Fin 4) (d : Fin 64),
    headWord (BitVec.ofNat 32 h.val) (BitVec.ofNat 32 d.val) = if d.val / 16 = h.val then 1#32 else 0#32 := by
  decide +kernel

theorem headMask_word (h : Fin 4) (d : Fin 64) :
    headMask (ix2 h d) = (((headWord (BitVec.ofNat 32 (0 * 4 + h.val)) (BitVec.ofNat 32 (0 * 64 + d.val))).toInt : ℝ) : EReal) := rfl

/-- The indicator vector at (h, d) is the indicator of `d / 16 = h`. -/
theorem headMask_apply (h : Fin 4) (d : Fin 64) : headMask (ix2 h d) = headInd h d := by
  rw [headMask_word]
  simp only [Nat.zero_mul, Nat.zero_add]
  rw [headWord_eq]
  unfold headInd
  by_cases hd : d.val / 16 = h.val
  · rw [if_pos hd, if_pos hd]
    show (((1 : ℤ) : ℝ) : EReal) = 1
    rw [Int.cast_one, EReal.coe_one]
  · rw [if_neg hd, if_neg hd]
    show (((0 : ℤ) : ℝ) : EReal) = 0
    rw [Int.cast_zero, EReal.coe_zero]

end Cert.Attention.Kernel

end
-- ==== Proof.KernelProj.lean ====
/-
  The three projections inside one grid point's body, read at an entry: the block's 64 query rows times the query
  matrix, and its 64 × 200 action rows (flattened to 12800 rows for one matrix product, then split again) times the
  key and the value matrix. Each entry is the plain sum over the 64 input features.
-/
import proofs.«173114_j42494406426931_2_alg».proof.Proof.Gen.KernelIdeal.Skeleton
import proofs.«173114_j42494406426931_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kernel

open Idealize.ShloMosaic Idealize.ShloMosaic.ValueIdx Cert.KernelIdeal Cert.KernelIdeal.Gen Cert.Attention

theorem rows_lhs0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem rows_lhs1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rows_rhs0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rows_rhs1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl
/-- A 64 × 64 by 64 × 64 matrix product into zeros, at (p, d): the sum over the contracted axis. -/
theorem matmul_rows_apply (l : FVec Ideal S64x64 .bf16) (r : FVec Ideal S64x64 .bf16) (p : Fin 64) (d : Fin 64) :
    matmul dot_S64x64_S64x64_S64x64_1_0_0_1_n_n none l r (constant (F := Ideal) S64x64 .f32 0x00000000#32) (ix2 p d)
      = ∑ j : Fin 64, l (ix2 p j) * r (ix2 j d) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 p d) ((contrEquiv1 dot_S64x64_S64x64_S64x64_1_0_0_1_n_n 64 rfl rfl).symm k) = ix2 p k := funext fun a => Fin.ext (by
    match a with
    | ⟨0, _⟩ => exact rows_lhs0 _ _
    | ⟨1, _⟩ => exact (rows_lhs1 _ _).trans hk)
  have er : dot_S64x64_S64x64_S64x64_1_0_0_1_n_n.rhsIdx (ix2 p d) ((contrEquiv1 dot_S64x64_S64x64_S64x64_1_0_0_1_n_n 64 rfl rfl).symm k) = ix2 k d := funext fun a => Fin.ext (by
    match a with
    | ⟨0, _⟩ => exact (rows_rhs0 _ _).trans hk
    | ⟨1, _⟩ => exact rows_rhs1 _ _)
  rw [el, er]

theorem flat_lhs0 (i : S12800x64.Idx) (q : dot_S12800x64_S64x64_S12800x64_1_0_0_1_n_n.contr.Idx) :
    (dot_S12800x64_S64x64_S12800x64_1_0_0_1_n_n.lhsIdx i q 0).val = (i 0).val := by
  unfold DotDims.lhsIdx
  rw [dif_neg (show ¬(0 : Fin S12800x64.rank) ∈ dot_S12800x64_S64x64_S12800x64_1_0_0_1_n_n.lhsBatch by decide), dif_pos (show (0 : Fin S12800x64.rank) ∈ dot_S12800x64_S64x64_S12800x64_1_0_0_1_n_n.lhsNonContracting by decide)]
  rfl
theorem flat_lhs1 (i : S12800x64.Idx) (q : dot_S12800x64_S64x64_S12800x64_1_0_0_1_n_n.contr.Idx) :
    (dot_S12800x64_S64x64_S12800x64_1_0_0_1_n_n.lhsIdx i q 1).val = (q ⟨0, by decide⟩).val :=
  dot_S12800x64_S64x64_S12800x64_1_0_0_1_n_n.lhsIdx_val_of_single rfl i q
theorem flat_rhs0 (i : S12800x64.Idx) (q : dot_S12800x64_S64x64_S12800x64_1_0_0_1_n_n.contr.Idx) :
    (dot_S12800x64_S64x64_S12800x64_1_0_0_1_n_n.rhsIdx i q 0).val = (q ⟨0, by decide⟩).val :=
  dot_S12800x64_S64x64_S12800x64_1_0_0_1_n_n.rhsIdx_val_of_single rfl i q
theorem flat_rhs1 (i : S12800x64.Idx) (q : dot_S12800x64_S64x64_S12800x64_1_0_0_1_n_n.contr.Idx) :
    (dot_S12800x64_S64x64_S12800x64_1_0_0_1_n_n.rhsIdx i q 1).val = (i 1).val := by
  unfold DotDims.rhsIdx
  rw [dif_neg (show ¬(1 : Fin S64x64.rank) ∈ dot_S12800x64_S64x64_S12800x64_1_0_0_1_n_n.rhsBatch by decide), dif_pos (show (1 : Fin S64x64.rank) ∈ dot_S12800x64_S64x64_S12800x64_1_0_0_1_n_n.rhsNonContracting by decide)]
  rfl
/-- A 12800 × 64 by 64 × 64 matrix product into zeros, at (i, d). -/
theorem matmul_flat_apply (l : FVec Ideal S12800x64 .bf16) (r : FVec Ideal S64x64 .bf16) (i : Fin 12800) (d : Fin 64) :
    matmul dot_S12800x64_S64x64_S12800x64_1_0_0_1_n_n none l r (constant (F := Ideal) S12800x64 .f32 0x00000000#32) (ix2 i d)
      = ∑ j : Fin 64, l (ix2 i j) * r (ix2 j d) := by
  simp only [matmul]
  rw [Ideal.matmul_constant_zero_apply, ← Equiv.sum_comp (contrEquiv1 dot_S12800x64_S64x64_S12800x64_1_0_0_1_n_n 64 rfl rfl).symm]
  refine Finset.sum_congr rfl fun k _ => ?_
  have hk := contrEquiv1_symm_val dot_S12800x64_S64x64_S12800x64_1_0_0_1_n_n 64 rfl rfl k
  have el : dot_S12800x64_S64x64_S12800x64_1_0_0_1_n_n.lhsIdx (ix2 i d) ((contrEquiv1 dot_S12800x64_S64x64_S12800x64_1_0_0_1_n_n 64 rfl rfl).symm k) = ix2 i k := funext fun a => Fin.ext (by
    match a with
    | ⟨0, _⟩ => exact flat_lhs0 _ _
    | ⟨1, _⟩ => exact (flat_lhs1 _ _).trans hk)
  have er : dot_S12800x64_S64x64_S12800x64_1_0_0_1_n_n.rhsIdx (ix2 i d) ((contrEquiv1 dot_S12800x64_S64x64_S12800x64_1_0_0_1_n_n 64 rfl rfl).symm k) = ix2 k d := funext fun a => Fin.ext (by
    match a with
    | ⟨0, _⟩ => exact (flat_rhs0 _ _).trans hk
    | ⟨1, _⟩ => exact flat_rhs1 _ _)
  rw [el, er]

/-- The projected query block at (p, d): row p of the block's queries times the query matrix. -/
theorem queryProj_apply (v0 : Vec Ideal S64x1x64 .f32) (v3 : Vec Ideal S64x64 .f32) (p d : Fin 64) :
    k0_pay2 (F := Ideal) v0 v3 (ix2 p d) = proj (fun j => v0 (ix3 p 0 j)) v3 d := by
  unfold k0_pay2
  refine (matmul_rows_apply _ _ p d).trans ?_
  unfold proj
  refine Finset.sum_congr rfl fun j _ => ?_
  refine congrArg (· * v3 (ix2 j d)) ?_
  show shapeCast S64x64 v0 shapeCasts_S64x1x64_S64x64 (ix2 p j) = v0 (ix3 p 0 j)
  exact shapeCast_apply v0 shapeCasts_S64x1x64_S64x64 _ _ (by
    rw [Shape.rowMajor_val_three, Shape.rowMajor_val_two]
    show (p.val * 1 + 0) * 64 + j.val = p.val * 64 + j.val
    omega)

/-- The block's 64 × 200 action rows flattened to 12800 rows, at (200 p + k, j). -/
theorem flatten_apply (v2 : Vec Ideal S64x200x64 .f32) (p : Fin 64) (k : Fin 200) (j : Fin 64)
    (hlt : p.val * 200 + k.val < 12800) :
    k0_pay3 (F := Ideal) v2 (ix2 (⟨p.val * 200 + k.val, hlt⟩ : Fin 12800) j) = v2 (ix3 p k j) := by
  unfold k0_pay3
  show shapeCast S12800x64 v2 shapeCasts_S64x200x64_S12800x64 (ix2 (⟨p.val * 200 + k.val, hlt⟩ : Fin 12800) j) = v2 (ix3 p k j)
  exact shapeCast_apply v2 shapeCasts_S64x200x64_S12800x64 _ _ (by
    rw [Shape.rowMajor_val_three, Shape.rowMajor_val_two]
    show (p.val * 200 + k.val) * 64 + j.val = (p.val * 200 + k.val) * 64 + j.val
    rfl)

theorem flat_lt (p : Fin 64) (k : Fin 200) : p.val * 200 + k.val < 12800 := by
  have := p.isLt; have := k.isLt; omega

/-- The projected key block at (p, k, d): action row (p, k) times the key matrix. -/
theorem keyProj_apply (v2 : Vec Ideal S64x200x64 .f32) (v5 : Vec Ideal S64x64 .f32) (p : Fin 64) (k : Fin 200) (d : Fin 64) :
    k0_pay4 (F := Ideal) v2 v5 (ix3 p k d) = proj (fun j => v2 (ix3 p k j)) v5 d := by
  unfold k0_pay4
  show shapeCast S64x200x64 (matmul dot_S12800x64_S64x64_S12800x64_1_0_0_1_n_n none (k0_pay3 v2)
      (truncf .bf16 v5 bitsLt_bf16_f32) (constant (F := Ideal) S12800x64 .f32 0x00000000#32)) shapeCasts_S12800x64_S64x200x64 (ix3 p k d) = _
  refine (shapeCast_apply _ shapeCasts_S12800x64_S64x200x64 (ix3 p k d) (ix2 (⟨p.val * 200 + k.val, flat_lt p k⟩ : Fin 12800) d) (by
    rw [Shape.rowMajor_val_three, Shape.rowMajor_val_two]
    show (p.val * 200 + k.val) * 64 + d.val = (p.val * 200 + k.val) * 64 + d.val
    rfl)).trans ?_
  refine (matmul_flat_apply _ _ _ d).trans ?_
  unfold proj
  refine Finset.sum_congr rfl fun j _ => ?_
  rw [flatten_apply v2 p k j (flat_lt p k)]
  rfl

/-- The projected value block at (p, k, d): action row (p, k) times the value matrix. -/
theorem valueProj_apply (v2 : Vec Ideal S64x200x64 .f32) (v7 : Vec Ideal S64x64 .f32) (p : Fin 64) (k : Fin 200) (d : Fin 64) :
    k0_pay5 (F := Ideal) v2 v7 (ix3 p k d) = proj (fun j => v2 (ix3 p k j)) v7 d := by
  unfold k0_pay5
  show shapeCast S64x200x64 (matmul dot_S12800x64_S64x64_S12800x64_1_0_0_1_n_n none (k0_pay3 v2)
      (truncf .bf16 v7 bitsLt_bf16_f32) (constant (F := Ideal) S12800x64 .f32 0x00000000#32)) shapeCasts_S12800x64_S64x200x64 (ix3 p k d) = _
  refine (shapeCast_apply _ shapeCasts_S12800x64_S64x200x64 (ix3 p k d) (ix2 (⟨p.val * 200 + k.val, flat_lt p k⟩ : Fin 12800) d) (by
    rw [Shape.rowMajor_val_three, Shape.rowMajor_val_two]
    show (p.val * 200 + k.val) * 64 + d.val = (p.val * 200 + k.val) * 64 + d.val
    rfl)).trans ?_
  refine (matmul_flat_apply _ _ _ d).trans ?_
  unfold proj
  refine Finset.sum_congr rfl fun j _ => ?_
  rw [flatten_apply v2 p k j (flat_lt p k)]
  rfl

end Cert.Attention.Kernel

end
-- ==== Proof.KernelAttend.lean ====
/-
  The attention part of one grid point's body, stage by stage, each read at an entry of the block
  (p = batch row in the block, h = head, k = action, d or c = projected column):
  * the queries times the head indicator, one copy per head;
  * the scores: a batched product over all 64 columns, times 1/8;
  * the softmax weights along the 200 actions;
  * the weighted values, times the indicator, summed over the four heads.
-/
import proofs.«173114_j42494406426931_2_alg».proof.Proof.Gen.KernelIdeal.Skeleton
import proofs.«173114_j42494406426931_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kernel

open Idealize.ShloMosaic Idealize.ShloMosaic.ValueIdx Cert.KernelIdeal Cert.KernelIdeal.Gen Cert.Attention

/-! ## The stages -/

/-- The queries times the indicator, one copy per head: entry (p, h, d) is `q (p, d) * ind (h, d)`. -/
def maskedQueries (q : FVec Ideal S64x64 .f32) (ind : FVec Ideal S4x64 .f32) : FVec Ideal S64x4x64 .bf16 :=
  truncf .bf16 (mulf (broadcastTo S64x4x64 (shapeCast S64x1x64 q shapeCasts_S64x64_S64x1x64) broadcasts_S64x1x64_S64x4x64)
    (broadcastTo S64x4x64 (shapeCast S1x4x64 ind shapeCasts_S4x64_S1x4x64) broadcasts_S1x4x64_S64x4x64)) bitsLt_bf16_f32

/-- The scores: the batched product of the masked queries with the keys over all 64 columns, times 1/8. -/
def scoreBlock (qm : FVec Ideal S64x4x64 .bf16) (kb : FVec Ideal S64x200x64 .bf16) : FVec Ideal S64x4x200 .f32 :=
  mulf (matmul dot_S64x4x64_S64x200x64_S64x4x200_2_2_1_1_0_0 none qm kb (constant (F := Ideal) S64x4x200 .f32 0x00000000#32))
    (broadcast S64x4x200 (Scalar.ofBits (F := Ideal) .f32 0x3E000000#32))

/-- The maximum of each (row, head)'s 200 scores, from -∞. -/
def maxBlock (sc : FVec Ideal S64x4x200 .f32) : FVec Ideal S64x4 .f32 :=
  multiReduction (F := Ideal) .maximumf [2] S64x4 sc 0xFF800000#32 reduces_S64x4x200_S64x4 (.inl rfl) rfl

/-- `exp (score - max)`. -/
def expBlock (sc : FVec Ideal S64x4x200 .f32) : FVec Ideal S64x4x200 .f32 :=
  exp (subf sc (broadcastTo S64x4x200 (shapeCast S64x4x1 (maxBlock sc) shapeCasts_S64x4_S64x4x1) broadcasts_S64x4x1_S64x4x200))

/-- The sum of each (row, head)'s 200 exponentials. -/
def sumBlock (ex : FVec Ideal S64x4x200 .f32) : FVec Ideal S64x4 .f32 :=
  multiReduction (F := Ideal) .add [2] S64x4 ex 0x00000000#32 reduces_S64x4x200_S64x4 (.inl rfl) rfl

/-- The softmax weights. -/
def weightBlock (sc : FVec Ideal S64x4x200 .f32) : FVec Ideal S64x4x200 .bf16 :=
  truncf .bf16 (divf (expBlock sc)
    (broadcastTo S64x4x200 (shapeCast S64x4x1 (sumBlock (expBlock sc)) shapeCasts_S64x4_S64x4x1) broadcasts_S64x4x1_S64x4x200)) bitsLt_bf16_f32

/-- The weighted values of every head at every column, times the indicator, summed over the heads. -/
def combineBlock (w : FVec Ideal S64x4x200 .bf16) (vb : FVec Ideal S64x200x64 .bf16) (ind : FVec Ideal S4x64 .f32) : FVec Ideal S64x64 .f32 :=
  multiReduction (F := Ideal) .add [1] S64x64
    (mulf (matmul dot_S64x4x200_S64x200x64_S64x4x64_2_1_1_2_0_0 none w vb (constant (F := Ideal) S64x4x64 .f32 0x00000000#32))
      (broadcastTo S64x4x64 (shapeCast S1x4x64 ind shapeCasts_S4x64_S1x4x64) broadcasts_S1x4x64_S64x4x64))
    0x00000000#32 reduces_S64x4x64_S64x64 (.inl rfl) rfl

/-! ## Layout: rows over heads, the indicator over rows, a (row, head) value over the actions -/

theorem rows_over_heads (q : FVec Ideal S64x64 .f32) (p : Fin 64) (h : Fin 4) (d : Fin 64) :
    broadcastTo S64x4x64 (shapeCast S64x1x64 q shapeCasts_S64x64_S64x1x64) broadcasts_S64x1x64_S64x4x64 (ix3 p h d) = q (ix2 p d) := by
  refine (broadcastTo_apply _ broadcasts_S64x1x64_S64x4x64 (ix3 p h d) (ix3 p (0 : Fin 1) d) (fun a => ?_)).trans ?_
  · match a with
    | ⟨0, _⟩ => show p.val = if (64 : Nat) = 1 then 0 else p.val; rw [if_neg (by decide)]
    | ⟨1, _⟩ => show 0 = if (1 : Nat) = 1 then 0 else h.val; rw [if_pos rfl]
    | ⟨2, _⟩ => show d.val = if (64 : Nat) = 1 then 0 else d.val; rw [if_neg (by decide)]
  · exact shapeCast_apply q shapeCasts_S64x64_S64x1x64 _ _ (by
      rw [Shape.rowMajor_val_two, Shape.rowMajor_val_three]
      show p.val * 64 + d.val = (p.val * 1 + 0) * 64 + d.val
      omega)

theorem ind_over_rows (ind : FVec Ideal S4x64 .f32) (p : Fin 64) (h : Fin 4) (d : Fin 64) :
    broadcastTo S64x4x64 (shapeCast S1x4x64 ind shapeCasts_S4x64_S1x4x64) broadcasts_S1x4x64_S64x4x64 (ix3 p h d) = ind (ix2 h d) := by
  refine (broadcastTo_apply _ broadcasts_S1x4x64_S64x4x64 (ix3 p h d) (ix3 (0 : Fin 1) h d) (fun a => ?_)).trans ?_
  · match a with
    | ⟨0, _⟩ => show 0 = if (1 : Nat) = 1 then 0 else p.val; rw [if_pos rfl]
    | ⟨1, _⟩ => show h.val = if (4 : Nat) = 1 then 0 else h.val; rw [if_neg (by decide)]
    | ⟨2, _⟩ => show d.val = if (64 : Nat) = 1 then 0 else d.val; rw [if_neg (by decide)]
  · exact shapeCast_apply ind shapeCasts_S4x64_S1x4x64 _ _ (by
      rw [Shape.rowMajor_val_two, Shape.rowMajor_val_three]
      show h.val * 64 + d.val = (0 * 4 + h.val) * 64 + d.val
      omega)

theorem over_actions (r : FVec Ideal S64x4 .f32) (p : Fin 64) (h : Fin 4) (k : Fin 200) :
    broadcastTo S64x4x200 (shapeCast S64x4x1 r shapeCasts_S64x4_S64x4x1) broadcasts_S64x4x1_S64x4x200 (ix3 p h k) = r (ix2 p h) := by
  refine (broadcastTo_apply _ broadcasts_S64x4x1_S64x4x200 (ix3 p h k) (ix3 p h (0 : Fin 1)) (fun a => ?_)).trans ?_
  · match a with
    | ⟨0, _⟩ => show p.val = if (64 : Nat) = 1 then 0 else p.val; rw [if_neg (by decide)]
    | ⟨1, _⟩ => show h.val = if (4 : Nat) = 1 then 0 else h.val; rw [if_neg (by decide)]
    | ⟨2, _⟩ => show 0 = if (1 : Nat) = 1 then 0 else k.val; rw [if_pos rfl]
  · exact shapeCast_apply r shapeCasts_S64x4_S64x4x1 _ _ (by
      rw [Shape.rowMajor_val_two, Shape.rowMajor_val_three]
      show p.val * 4 + h.val = (p.val * 4 + h.val) * 1 + 0
      omega)

/-! ## The two batched products, read at an entry -/

theorem qk_lhs0 (i : S64x4x200.Idx) (q : dot_S64x4x64_S64x200x64_S64x4x200_2_2_1_1_0_0.contr.Idx) :
    (dot_S64x4x64_S64x200x64_S64x4x200_2_2_1_1_0_0.lhsIdx i q 0).val = (i 0).val := by
  unfold DotDims.lhsIdx
  rw [dif_pos (show (0 : Fin S64x4x64.rank) ∈ dot_S64x4x64_S64x200x64_S64x4x200_2_2_1_1_0_0.lhsBatch by decide)]
  rfl
theorem qk_lhs1 (i : S64x4x200.Idx) (q : dot_S64x4x64_S64x200x64_S64x4x200_2_2_1_1_0_0.contr.Idx) :
    (dot_S64x4x64_S64x200x64_S64x4x200_2_2_1_1_0_0.lhsIdx i q 1).val = (i 1).val := by
  unfold DotDims.lhsIdx
  rw [dif_neg (show ¬(1 : Fin S64x4x64.rank) ∈ dot_S64x4x64_S64x200x64_S64x4x200_2_2_1_1_0_0.lhsBatch by decide), dif_pos (show (1 : Fin S64x4x64.rank) ∈ dot_S64x4x64_S64x200x64_S64x4x200_2_2_1_1_0_0.lhsNonContracting by decide)]
  rfl
theorem qk_lhs2 (i : S64x4x200.Idx) (q : dot_S64x4x64_S64x200x64_S64x4x200_2_2_1_1_0_0.contr.Idx) :
    (dot_S64x4x64_S64x200x64_S64x4x200_2_2_1_1_0_0.lhsIdx i q 2).val = (q ⟨0, by decide⟩).val :=
  dot_S64x4x64_S64x200x64_S64x4x200_2_2_1_1_0_0.lhsIdx_val_of_single rfl i q
theorem qk_rhs0 (i : S64x4x200.Idx) (q : dot_S64x4x64_S64x200x64_S64x4x200_2_2_1_1_0_0.contr.Idx) :
    (dot_S64x4x64_S64x200x64_S64x4x200_2_2_1_1_0_0.rhsIdx i q 0).val = (i 0).val := by
  unfold DotDims.rhsIdx
  rw [dif_pos (show (0 : Fin S64x200x64.rank) ∈ dot_S64x4x64_S64x200x64_S64x4x200_2_2_1_1_0_0.rhsBatch by decide)]
  rfl
theorem qk_rhs1 (i : S64x4x200.Idx) (q : dot_S64x4x64_S64x200x64_S64x4x200_2_2_1_1_0_0.contr.Idx) :
    (dot_S64x4x64_S64x200x64_S64x4x200_2_2_1_1_0_0.rhsIdx i q 1).val = (i 2).val := by
  unfold DotDims.rhsIdx
  rw [dif_neg (show ¬(1 : Fin S64x200x64.rank) ∈ dot_S64x4x64_S64x200x64_S64x4x200_2_2_1_1_0_0.rhsBatch by decide), dif_pos (show (1 : Fin S64x200x64.rank) ∈ dot_S64x4x64_S64x200x64_S64x4x200_2_2_1_1_0_0.rhsNonContracting by decide)]
  rfl
theorem qk_rhs2 (i : S64x4x200.Idx) (q : dot_S64x4x64_S64x200x64_S64x4x200_2_2_1_1_0_0.contr.Idx) :
    (dot_S64x4x64_S64x200x64_S64x4x200_2_2_1_1_0_0.rhsIdx i q 2).val = (q ⟨0, by decide⟩).val :=
  dot_S64x4x64_S64x200x64_S64x4x200_2_2_1_1_0_0.rhsIdx_val_of_single rfl i q

/-- Queries (one copy per head) against keys, over all 64 columns, at (p, h, k). -/
theorem matmul_qk_apply (l : FVec Ideal S64x4x64 .bf16) (r : FVec Ideal S64x200x64 .bf16) (p : Fin 64) (h : Fin 4) (k : Fin 200) :
    matmul dot_S64x4x64_S64x200x64_S64x4x200_2_2_1_1_0_0 none l r (constant (F := Ideal) S64x4x200 .f32 0x00000000#32) (ix3 p h k)
      = ∑ d : Fin 64, l (ix3 p h d) * r (ix3 p k d) := by
  simp only [matmul]
  rw [Ideal.matmul_constant_zero_apply, ← Equiv.sum_comp (contrEquiv1 dot_S64x4x64_S64x200x64_S64x4x200_2_2_1_1_0_0 64 rfl rfl).symm]
  refine Finset.sum_congr rfl fun d _ => ?_
  have hd := contrEquiv1_symm_val dot_S64x4x64_S64x200x64_S64x4x200_2_2_1_1_0_0 64 rfl rfl d
  have el : dot_S64x4x64_S64x200x64_S64x4x200_2_2_1_1_0_0.lhsIdx (ix3 p h k) ((contrEquiv1 dot_S64x4x64_S64x200x64_S64x4x200_2_2_1_1_0_0 64 rfl rfl).symm d) = ix3 p h d := funext fun a => Fin.ext (by
    match a with
    | ⟨0, _⟩ => exact qk_lhs0 _ _
    | ⟨1, _⟩ => exact qk_lhs1 _ _
    | ⟨2, _⟩ => exact (qk_lhs2 _ _).trans hd)
  have er : dot_S64x4x64_S64x200x64_S64x4x200_2_2_1_1_0_0.rhsIdx (ix3 p h k) ((contrEquiv1 dot_S64x4x64_S64x200x64_S64x4x200_2_2_1_1_0_0 64 rfl rfl).symm d) = ix3 p k d := funext fun a => Fin.ext (by
    match a with
    | ⟨0, _⟩ => exact qk_rhs0 _ _
    | ⟨1, _⟩ => exact qk_rhs1 _ _
    | ⟨2, _⟩ => exact (qk_rhs2 _ _).trans hd)
  rw [el, er]

theorem av_lhs0 (i : S64x4x64.Idx) (q : dot_S64x4x200_S64x200x64_S64x4x64_2_1_1_2_0_0.contr.Idx) :
    (dot_S64x4x200_S64x200x64_S64x4x64_2_1_1_2_0_0.lhsIdx i q 0).val = (i 0).val := by
  unfold DotDims.lhsIdx
  rw [dif_pos (show (0 : Fin S64x4x200.rank) ∈ dot_S64x4x200_S64x200x64_S64x4x64_2_1_1_2_0_0.lhsBatch by decide)]
  rfl
theorem av_lhs1 (i : S64x4x64.Idx) (q : dot_S64x4x200_S64x200x64_S64x4x64_2_1_1_2_0_0.contr.Idx) :
    (dot_S64x4x200_S64x200x64_S64x4x64_2_1_1_2_0_0.lhsIdx i q 1).val = (i 1).val := by
  unfold DotDims.lhsIdx
  rw [dif_neg (show ¬(1 : Fin S64x4x200.rank) ∈ dot_S64x4x200_S64x200x64_S64x4x64_2_1_1_2_0_0.lhsBatch by decide), dif_pos (show (1 : Fin S64x4x200.rank) ∈ dot_S64x4x200_S64x200x64_S64x4x64_2_1_1_2_0_0.lhsNonContracting by decide)]
  rfl
theorem av_lhs2 (i : S64x4x64.Idx) (q : dot_S64x4x200_S64x200x64_S64x4x64_2_1_1_2_0_0.contr.Idx) :
    (dot_S64x4x200_S64x200x64_S64x4x64_2_1_1_2_0_0.lhsIdx i q 2).val = (q ⟨0, by decide⟩).val :=
  dot_S64x4x200_S64x200x64_S64x4x64_2_1_1_2_0_0.lhsIdx_val_of_single rfl i q
theorem av_rhs0 (i : S64x4x64.Idx) (q : dot_S64x4x200_S64x200x64_S64x4x64_2_1_1_2_0_0.contr.Idx) :
    (dot_S64x4x200_S64x200x64_S64x4x64_2_1_1_2_0_0.rhsIdx i q 0).val = (i 0).val := by
  unfold DotDims.rhsIdx
  rw [dif_pos (show (0 : Fin S64x200x64.rank) ∈ dot_S64x4x200_S64x200x64_S64x4x64_2_1_1_2_0_0.rhsBatch by decide)]
  rfl
theorem av_rhs1 (i : S64x4x64.Idx) (q : dot_S64x4x200_S64x200x64_S64x4x64_2_1_1_2_0_0.contr.Idx) :
    (dot_S64x4x200_S64x200x64_S64x4x64_2_1_1_2_0_0.rhsIdx i q 1).val = (q ⟨0, by decide⟩).val :=
  dot_S64x4x200_S64x200x64_S64x4x64_2_1_1_2_0_0.rhsIdx_val_of_single rfl i q
theorem av_rhs2 (i : S64x4x64.Idx) (q : dot_S64x4x200_S64x200x64_S64x4x64_2_1_1_2_0_0.contr.Idx) :
    (dot_S64x4x200_S64x200x64_S64x4x64_2_1_1_2_0_0.rhsIdx i q 2).val = (i 2).val := by
  unfold DotDims.rhsIdx
  rw [dif_neg (show ¬(2 : Fin S64x200x64.rank) ∈ dot_S64x4x200_S64x200x64_S64x4x64_2_1_1_2_0_0.rhsBatch by decide), dif_pos (show (2 : Fin S64x200x64.rank) ∈ dot_S64x4x200_S64x200x64_S64x4x64_2_1_1_2_0_0.rhsNonContracting by decide)]
  rfl

/-- Weights against values, over the 200 actions, at (p, h, c). -/
theorem matmul_av_apply (l : FVec Ideal S64x4x200 .bf16) (r : FVec Ideal S64x200x64 .bf16) (p : Fin 64) (h : Fin 4) (c : Fin 64) :
    matmul dot_S64x4x200_S64x200x64_S64x4x64_2_1_1_2_0_0 none l r (constant (F := Ideal) S64x4x64 .f32 0x00000000#32) (ix3 p h c)
      = ∑ k : Fin 200, l (ix3 p h k) * r (ix3 p k c) := by
  simp only [matmul]
  rw [Ideal.matmul_constant_zero_apply, ← Equiv.sum_comp (contrEquiv1 dot_S64x4x200_S64x200x64_S64x4x64_2_1_1_2_0_0 200 rfl rfl).symm]
  refine Finset.sum_congr rfl fun k _ => ?_
  have hk := contrEquiv1_symm_val dot_S64x4x200_S64x200x64_S64x4x64_2_1_1_2_0_0 200 rfl rfl k
  have el : dot_S64x4x200_S64x200x64_S64x4x64_2_1_1_2_0_0.lhsIdx (ix3 p h c) ((contrEquiv1 dot_S64x4x200_S64x200x64_S64x4x64_2_1_1_2_0_0 200 rfl rfl).symm k) = ix3 p h k := funext fun a => Fin.ext (by
    match a with
    | ⟨0, _⟩ => exact av_lhs0 _ _
    | ⟨1, _⟩ => exact av_lhs1 _ _
    | ⟨2, _⟩ => exact (av_lhs2 _ _).trans hk)
  have er : dot_S64x4x200_S64x200x64_S64x4x64_2_1_1_2_0_0.rhsIdx (ix3 p h c) ((contrEquiv1 dot_S64x4x200_S64x200x64_S64x4x64_2_1_1_2_0_0 200 rfl rfl).symm k) = ix3 p k c := funext fun a => Fin.ext (by
    match a with
    | ⟨0, _⟩ => exact av_rhs0 _ _
    | ⟨1, _⟩ => exact (av_rhs1 _ _).trans hk
    | ⟨2, _⟩ => exact av_rhs2 _ _)
  rw [el, er]

/-! ## The stages read at an entry -/

theorem maskedQueries_apply (q : FVec Ideal S64x64 .f32) (ind : FVec Ideal S4x64 .f32) (p : Fin 64) (h : Fin 4) (d : Fin 64) :
    maskedQueries q ind (ix3 p h d) = q (ix2 p d) * ind (ix2 h d) := by
  show broadcastTo S64x4x64 (shapeCast S64x1x64 q shapeCasts_S64x64_S64x1x64) broadcasts_S64x1x64_S64x4x64 (ix3 p h d)
      * broadcastTo S64x4x64 (shapeCast S1x4x64 ind shapeCasts_S4x64_S1x4x64) broadcasts_S1x4x64_S64x4x64 (ix3 p h d) = _
  rw [rows_over_heads, ind_over_rows]

theorem scoreBlock_apply (qm : FVec Ideal S64x4x64 .bf16) (kb : FVec Ideal S64x200x64 .bf16) (p : Fin 64) (h : Fin 4) (k : Fin 200) :
    scoreBlock qm kb (ix3 p h k) = (∑ d : Fin 64, qm (ix3 p h d) * kb (ix3 p k d)) * Ideal.ofBits .f32 0x3E000000#32 := by
  show matmul dot_S64x4x64_S64x200x64_S64x4x200_2_2_1_1_0_0 none qm kb (constant (F := Ideal) S64x4x200 .f32 0x00000000#32) (ix3 p h k) * Ideal.ofBits .f32 0x3E000000#32 = _
  rw [matmul_qk_apply]

theorem maxBlock_apply (sc : FVec Ideal S64x4x200 .f32) (p : Fin 64) (h : Fin 4) :
    maxBlock sc (ix2 p h) = rowMax (fun k => sc (ix3 p h k)) := by
  refine (Ideal.multiReduction_maximumf_single sc 0xFF800000#32 reduces_S64x4x200_S64x4 (.inl rfl) rfl (ix2 p h)).trans ?_
  have e : sc ∘ reduces_S64x4x200_S64x4.lift (ix2 p h) = fun k : Fin 200 => sc (ix3 p h k) := funext fun k =>
    congrArg sc (funext fun a => Fin.ext (by match a with | ⟨0, _⟩ => rfl | ⟨1, _⟩ => rfl | ⟨2, _⟩ => rfl))
  rw [e]
  rfl

theorem expBlock_apply (sc : FVec Ideal S64x4x200 .f32) (p : Fin 64) (h : Fin 4) (k : Fin 200) :
    expBlock sc (ix3 p h k) = Ideal.exp (sc (ix3 p h k) - rowMax (fun k' => sc (ix3 p h k'))) := by
  show Ideal.exp (sc (ix3 p h k) - broadcastTo S64x4x200 (shapeCast S64x4x1 (maxBlock sc) shapeCasts_S64x4_S64x4x1) broadcasts_S64x4x1_S64x4x200 (ix3 p h k)) = _
  rw [over_actions, maxBlock_apply]

theorem sumBlock_apply (ex : FVec Ideal S64x4x200 .f32) (p : Fin 64) (h : Fin 4) :
    sumBlock ex (ix2 p h) = ∑ k : Fin 200, ex (ix3 p h k) := by
  refine (Ideal.multiReduction_add_single ex 0x00000000#32 reduces_S64x4x200_S64x4 (.inl rfl) rfl (ix2 p h)).trans ?_
  refine Finset.sum_congr rfl fun k _ => ?_
  exact congrArg ex (funext fun a => Fin.ext (by match a with | ⟨0, _⟩ => rfl | ⟨1, _⟩ => rfl | ⟨2, _⟩ => rfl))

theorem weightBlock_apply (sc : FVec Ideal S64x4x200 .f32) (p : Fin 64) (h : Fin 4) (k : Fin 200) :
    weightBlock sc (ix3 p h k) = softmax (fun k' => sc (ix3 p h k')) k := by
  show Ideal.div (expBlock sc (ix3 p h k))
      (broadcastTo S64x4x200 (shapeCast S64x4x1 (sumBlock (expBlock sc)) shapeCasts_S64x4_S64x4x1) broadcasts_S64x4x1_S64x4x200 (ix3 p h k)) = _
  rw [over_actions, sumBlock_apply, expBlock_apply]
  unfold softmax
  refine congrArg (Ideal.div _) (Finset.sum_congr rfl fun k' _ => ?_)
  rw [expBlock_apply]

theorem combineBlock_apply (w : FVec Ideal S64x4x200 .bf16) (vb : FVec Ideal S64x200x64 .bf16) (ind : FVec Ideal S4x64 .f32) (p c : Fin 64) :
    combineBlock w vb ind (ix2 p c) = ∑ h : Fin 4, (∑ k : Fin 200, w (ix3 p h k) * vb (ix3 p k c)) * ind (ix2 h c) := by
  refine (Ideal.multiReduction_add_single _ 0x00000000#32 reduces_S64x4x64_S64x64 (.inl rfl) rfl (ix2 p c)).trans ?_
  refine Finset.sum_congr rfl fun (h : Fin 4) _ => ?_
  have e : reduces_S64x4x64_S64x64.lift (ix2 p c) h = ix3 p h c :=
    funext fun a => Fin.ext (by match a with | ⟨0, _⟩ => rfl | ⟨1, _⟩ => rfl | ⟨2, _⟩ => rfl)
  rw [e]
  exact congrArg₂ (· * ·) (matmul_av_apply w vb p h c) (ind_over_rows ind p h c)

end Cert.Attention.Kernel

end
-- ==== Proof.KernelBlock.lean ====
/-
  What one grid point's body leaves in the output block: for the block's 64 batch rows, entry (p, c) is the
  attention output of row p's query and its 200 actions at column c.

  The body projects the block's queries, keys and values, multiplies the projected queries by the head indicator
  (one copy per head), takes ALL heads' scores by one batched product over the 64 columns times 1/8, the softmax
  along the actions, the weighted values for every head at every column, and finally keeps, for column c, the head
  c / 16 by multiplying with the indicator and summing over the heads. The indicator kills the 48 foreign columns
  of each score and the three foreign heads of each output column, so the entry is the specification's.
-/
import proofs.«173114_j42494406426931_2_alg».proof.Proof.Gen.KernelIdeal.Frame
import proofs.«173114_j42494406426931_2_alg».proof.Proof.Spec
import proofs.«173114_j42494406426931_2_alg».proof.Proof.HeadMath
import proofs.«173114_j42494406426931_2_alg».proof.Proof.HeadMask
import proofs.«173114_j42494406426931_2_alg».proof.Proof.KernelProj
import proofs.«173114_j42494406426931_2_alg».proof.Proof.KernelAttend
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kernel

open Idealize.ShloMosaic Idealize.ShloMosaic.ValueIdx Cert.KernelIdeal Cert.KernelIdeal.Gen Cert.Attention

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's stored value is the four stages composed, with the head indicator as the body builds it. -/
theorem stored_eq (q : FVec Ideal S64x64 .f32) (kb vb : FVec Ideal S64x200x64 .bf16) :
    k0_pay1 (F := Ideal) q kb vb (iota .tc S4x64 32 [0] iota_S4x64_d0_w32) k0_pay6 k0_pay7 k0_pay8
      = combineBlock (weightBlock (scoreBlock (maskedQueries q headMask) kb)) vb headMask := rfl

/-- The block's scores are the specification's scores of the block's rows. -/
theorem scores_eq (x0 : Vec Ideal S64x1x64 .f32) (x1 : Vec Ideal S64x200x64 .f32) (x2 x3 : Vec Ideal S64x64 .f32)
    (p : Fin 64) (h : Fin 4) (k : Fin 200) :
    scoreBlock (maskedQueries (k0_pay2 (F := Ideal) x0 x2) headMask) (k0_pay4 (F := Ideal) x1 x3) (ix3 p h k)
      = score (proj (fun j => x0 (ix3 p 0 j)) x2) (fun k => proj (fun j => x1 (ix3 p k j)) x3) h k := by
  rw [scoreBlock_apply]
  refine Eq.trans ?_ (masked_score _ _ h k)
  refine congrArg (· * Ideal.ofBits .f32 0x3E000000#32) (Finset.sum_congr rfl fun d _ => ?_)
  rw [maskedQueries_apply, queryProj_apply, headMask_apply, keyProj_apply]

/-- The body's output block at (p, c), from the point's input blocks. -/
theorem block_eq (x0 : Vec Ideal S64x1x64 .f32) (x1 : Vec Ideal S64x200x64 .f32) (x2 x3 x4 : Vec Ideal S64x64 .f32)
    (p : Fin 64) (c : Fin 64) :
    out0_5 (F := Ideal) x0 x1 x2 x3 x4 (ix2 p c)
      = attend (proj (fun j => x0 (ix3 p 0 j)) x2) (fun k => proj (fun j => x1 (ix3 p k j)) x3)
          (fun k => proj (fun j => x1 (ix3 p k j)) x4) c := by
  unfold out0_5
  rw [View.canon_unit_zero zeros2]
  simp only [View.ld_unit_zero (S := S64x1x64) zeros3, View.ld_unit_zero (S := S64x200x64) zeros3,
    View.ld_unit_zero (S := S64x64) zeros2]
  rw [stored_eq, combineBlock_apply]
  simp only [headMask_apply]
  refine (select_head (fun h => ∑ k : Fin 200,
    weightBlock (scoreBlock (maskedQueries (k0_pay2 (F := Ideal) x0 x2) headMask) (k0_pay4 (F := Ideal) x1 x3)) (ix3 p h k)
      * k0_pay5 (F := Ideal) x1 x4 (ix3 p k c)) c).trans ?_
  unfold attend
  refine Finset.sum_congr rfl fun k _ => ?_
  rw [weightBlock_apply, valueProj_apply]
  refine congrArg (fun s => softmax s k * proj (fun j => x1 (ix3 p k j)) x4 c) ?_
  exact funext fun k' => scores_eq x0 x1 x2 x3 p (headOf c) k'

end Cert.Attention.Kernel

end
-- ==== Proof.KernelArray.lean ====
/-
  From one grid point's block to the whole output array. The kernel runs over 128 grid points; point t reads rows
  [64 t, 64 t + 64) of the two row-blocked arguments and the three 64 × 64 matrices whole, and writes rows
  [64 t, 64 t + 64) of the output. Each point's output block, entry by entry, is the attention result of the
  arguments at the block's rows; the 128 blocks tile the 8192 rows; so after the run the output array is the
  attention result of the five arguments, which the run leaves unchanged.
-/
import proofs.«173114_j42494406426931_2_alg».proof.Proof.Gen.KernelIdeal.Value
import proofs.«173114_j42494406426931_2_alg».proof.Proof.KernelBlock
import Idealize.ShloMosaic.Lib.Pipeline.Value
import Idealize.ShloMosaic.Lib.ValueIdx

noncomputable section

namespace Cert.Attention.KernelRun

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)
open Cert.Attention

variable (m : (ℓ : Loc nD τ sig) → Buf (Elt Ideal) ℓ) (ρ : Dev nD → PrngReg)

/-- The index maps over the grid: point t's output block is block (t, 0); the two row-blocked arguments sit at block
    (t, 0, 0); the three matrices at block (0, 0). -/
theorem index_facts : ∀ t : Fin cfg0.N,
    win0_5.index t (0 : Fin 2) = t.val ∧ win0_5.index t (1 : Fin 2) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks as parts of the arguments -/

/-- Entry (p, z, j) of point t's block of the first argument is entry (64 t + p, z, j) of the argument. -/
theorem iblk0_apply (c : Dev nD) (t : Fin cfg0.N) (x : S64x1x64.Idx) (k : S8192x1x64.Idx)
    (hk0 : (k 0).val = 64 * t.val + (x 0).val) (hk1 : (k 1).val = (x 1).val) (hk2 : (k 2).val = (x 2).val) :
    (iblk m c 0 t : Vec Ideal S64x1x64 .f32) x = (V m c main_arg0 : S8192x1x64.Idx → EReal) k := by
  obtain ⟨-, -, e0, e1, e2, -⟩ := index_facts t
  unfold iblk
  rw [View.read_apply]
  show V m c main_arg0 _ = V m c main_arg0 _
  congr 1
  funext a
  apply Fin.ext
  match a with
  | ⟨0, _⟩ => show win0_0.index t 0 * 64 + 1 * (x 0).val = (k 0).val; rw [e0, hk0]; omega
  | ⟨1, _⟩ => show win0_0.index t 1 * 1 + 1 * (x 1).val = (k 1).val; rw [e1, hk1]; omega
  | ⟨2, _⟩ => show win0_0.index t 2 * 64 + 1 * (x 2).val = (k 2).val; rw [e2, hk2]; omega

/-- Entry (p, k, j) of point t's block of the second argument is entry (64 t + p, k, j) of the argument. -/
theorem iblk1_apply (c : Dev nD) (t : Fin cfg0.N) (x : S64x200x64.Idx) (k : S8192x200x64.Idx)
    (hk0 : (k 0).val = 64 * t.val + (x 0).val) (hk1 : (k 1).val = (x 1).val) (hk2 : (k 2).val = (x 2).val) :
    (iblk m c 1 t : Vec Ideal S64x200x64 .f32) x = (V m c main_arg1 : S8192x200x64.Idx → EReal) k := by
  obtain ⟨-, -, -, -, -, e0, e1, e2, -⟩ := index_facts t
  unfold iblk
  rw [View.read_apply]
  show V m c main_arg1 _ = V m c main_arg1 _
  congr 1
  funext a
  apply Fin.ext
  match a with
  | ⟨0, _⟩ => show win0_1.index t 0 * 64 + 1 * (x 0).val = (k 0).val; rw [e0, hk0]; omega
  | ⟨1, _⟩ => show win0_1.index t 1 * 200 + 1 * (x 1).val = (k 1).val; rw [e1, hk1]; omega
  | ⟨2, _⟩ => show win0_1.index t 2 * 64 + 1 * (x 2).val = (k 2).val; rw [e2, hk2]; omega

/-- Every point's block of the query matrix is the whole matrix. -/
theorem iblk2_eq (c : Dev nD) (t : Fin cfg0.N) :
    (iblk m c 2 t : Vec Ideal S64x64 .f32) = (V m c main_arg2 : S64x64.Idx → EReal) := by
  obtain ⟨-, -, -, -, -, -, -, -, e0, e1, -⟩ := index_facts t
  unfold iblk
  refine funext fun (x : S64x64.Idx) => ?_
  rw [View.read_apply]
  show V m c main_arg2 _ = V m c main_arg2 _
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

/-- Every point's block of the key matrix is the whole matrix. -/
theorem iblk3_eq (c : Dev nD) (t : Fin cfg0.N) :
    (iblk m c 3 t : Vec Ideal S64x64 .f32) = (V m c main_arg3 : S64x64.Idx → EReal) := by
  obtain ⟨-, -, -, -, -, -, -, -, -, -, e0, e1, -⟩ := index_facts t
  unfold iblk
  refine funext fun (x : S64x64.Idx) => ?_
  rw [View.read_apply]
  show V m c main_arg3 _ = V m c main_arg3 _
  congr 1
  funext a
  apply Fin.ext
  match a with
  | ⟨0, _⟩ => show win0_3.index t 0 * 64 + 1 * (x 0).val = (x 0).val; rw [e0]; omega
  | ⟨1, _⟩ => show win0_3.index t 1 * 64 + 1 * (x 1).val = (x 1).val; rw [e1]; omega

/-- Every point's block of the value matrix is the whole matrix. -/
theorem iblk4_eq (c : Dev nD) (t : Fin cfg0.N) :
    (iblk m c 4 t : Vec Ideal S64x64 .f32) = (V m c main_arg4 : S64x64.Idx → EReal) := by
  obtain ⟨-, -, -, -, -, -, -, -, -, -, -, -, e0, e1⟩ := index_facts t
  unfold iblk
  refine funext fun (x : S64x64.Idx) => ?_
  rw [View.read_apply]
  show V m c main_arg4 _ = V m c main_arg4 _
  congr 1
  funext a
  apply Fin.ext
  match a with
  | ⟨0, _⟩ => show win0_4.index t 0 * 64 + 1 * (x 0).val = (x 0).val; rw [e0]; omega
  | ⟨1, _⟩ => show win0_4.index t 1 * 64 + 1 * (x 1).val = (x 1).val; rw [e1]; omega

/-! ## One point's write-back -/

/-- Entry (p, q) of the body's output block is entry (b, q) of the result, for any blocks whose row p is the
    arguments' batch row b and whose matrices are the arguments'. -/
theorem block_entry (x0 : Vec Ideal S64x1x64 .f32) (x1 : Vec Ideal S64x200x64 .f32) (x2 x3 x4 : Vec Ideal S64x64 .f32)
    (X0 : S8192x1x64.Idx → EReal) (X1 : S8192x200x64.Idx → EReal) (X2 X3 X4 : S64x64.Idx → EReal)
    (p q : Fin 64) (b : Fin 8192)
    (h0 : ∀ j : Fin 64, x0 (ix3 p 0 j) = X0 (ix3 b 0 j))
    (h1 : ∀ (k : Fin 200) (j : Fin 64), x1 (ix3 p k j) = X1 (ix3 b k j))
    (h2 : x2 = X2) (h3 : x3 = X3) (h4 : x4 = X4) :
    out0_5 (F := Ideal) x0 x1 x2 x3 x4 (ix2 p q) = result X0 X1 X2 X3 X4 (ix2 b q) := by
  subst h2 h3 h4
  rw [Kernel.block_eq]
  show _ = resultAt X0 X1 x2 x3 x4 b q
  unfold resultAt
  simp only [h0, h1]

/-- What point t writes back is block t of the result of the arguments. -/
theorem flushed_eq (c : Dev nD) (t : Fin cfg0.N) :
    (dats m 0 c).flushed 5 t = ((cfg0.win 5).blk t).view.read (Elt Ideal)
      (result (V m c main_arg0) (V m c main_arg1) (V m c main_arg2) (V m c main_arg3) (V m c main_arg4)) := by
  have hN : cfg0.N = 128 := N_0
  have ht : t.val < 128 := by have := t.isLt; omega
  obtain ⟨e0, e1, -⟩ := index_facts t
  rw [Value.flushed5]
  refine funext fun (y : S64x64.Idx) => ?_
  obtain ⟨p, q, rfl⟩ : ∃ p q : Fin 64, y = ix2 p q := ⟨y 0, y 1, eq_ix2 y⟩
  rw [View.read_apply]
  have hp : p.val < 64 := p.isLt
  have hemb : ((cfg0.win 5).blk t).view.emb (ix2 p q)
      = (ix2 (⟨64 * t.val + p.val, by omega⟩ : Fin 8192) q : S8192x64.Idx) := by
    funext a
    apply Fin.ext
    match a with
    | ⟨0, _⟩ => show win0_5.index t 0 * 64 + 1 * p.val = 64 * t.val + p.val; rw [e0]; omega
    | ⟨1, _⟩ => show win0_5.index t 1 * 64 + 1 * q.val = q.val; rw [e1]; omega
  rw [hemb]
  show out0_5 (F := Ideal) (iblk m c 0 t) (iblk m c 1 t) (iblk m c 2 t) (iblk m c 3 t) (iblk m c 4 t) (ix2 p q) = _
  refine block_entry _ _ _ _ _ _ _ _ _ _ p q _ (fun j => ?_) (fun k j => ?_) (iblk2_eq m c t) (iblk3_eq m c t) (iblk4_eq m c t)
  · exact iblk0_apply m c t _ _ rfl rfl rfl
  · exact iblk1_apply m c t _ _ rfl rfl rfl

/-! ## The blocks cover the array -/

/-- An index of the array is in point t's block iff each coordinate is in the block's range on its axis. -/
theorem mem_blk (t : Fin cfg0.N) (i : S8192x64.Idx) :
    i ∈ ((cfg0.win 5).blk t).view.set ↔ ∀ a : Fin 2, win0_5.index t a * S64x64.size a ≤ (i a).val ∧ (i a).val < win0_5.index t a * S64x64.size a + S64x64.size a := by
  show i ∈ ((View.whole main_v0).slice (win0_5.rect t)).set ↔ _
  rw [View.set_slice_whole, Rect.mem_set_unit]
  exact Iff.rfl

/-- Row r of the array is in the block of point r / 64. -/
theorem cover (i : S8192x64.Idx) :
    ∃ t : Fin cfg0.N, (cfg0.win 5).flush t = true ∧ i ∈ ((cfg0.win 5).blk t).view.set := by
  have hN : cfg0.N = 128 := N_0
  have hi0 : (i 0).val < 8192 := (i 0).isLt
  have hi1 : (i 1).val < 64 := (i 1).isLt
  have hlt : (i 0).val / 64 < cfg0.N := by omega
  obtain ⟨e0, e1, -⟩ := index_facts ⟨(i 0).val / 64, hlt⟩
  refine ⟨⟨(i 0).val / 64, hlt⟩, flush0_5 _, ?_⟩
  rw [mem_blk]
  intro a
  match a with
  | ⟨0, _⟩ =>
    show win0_5.index ⟨(i 0).val / 64, hlt⟩ 0 * 64 ≤ (i 0).val ∧ (i 0).val < win0_5.index ⟨(i 0).val / 64, hlt⟩ 0 * 64 + 64
    rw [e0]; show (i 0).val / 64 * 64 ≤ (i 0).val ∧ (i 0).val < (i 0).val / 64 * 64 + 64; omega
  | ⟨1, _⟩ =>
    show win0_5.index ⟨(i 0).val / 64, hlt⟩ 1 * 64 ≤ (i 1).val ∧ (i 1).val < win0_5.index ⟨(i 0).val / 64, hlt⟩ 1 * 64 + 64
    rw [e1]; omega

/-! ## The whole array, and the run -/

/-- After the last point the output array is the result of the arguments. -/
theorem final (c : Dev nD) :
    (dats m 0 c).arrAt 5 cfg0.N
      = result (V m c main_arg0) (V m c main_arg1) (V m c main_arg2) (V m c main_arg3) (V m c main_arg4) :=
  (dats m 0 c).arrAt_eq_of_cover 5 _ (fun t _ => flushed_eq m c t) cover

/-- The run of the whole kernel: the output array ends at the attention result of the five arguments, which are
    unchanged. -/
theorem run : θ_run (Cert.KernelIdeal.defs (F := Ideal)) (onTc (τ := Cert.KernelIdeal.τ) (Cert.KernelIdeal.main (F := Ideal))) ⟨m, fun _ => 0, ρ⟩ fun r => ∀ c : Dev nD,
      r.2.mem ((c : Thread nD τ).loc main_v0) = Cert.Attention.result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Attention.KernelRun

end
-- ==== Proof.RefIsResult.lean ====
/-
  The reference program computes the attention function of the specification.

  The reference is a chain of array operations: three projections, a split of the 64 projected columns into four
  heads of sixteen, the scores (a dot product over a head's columns, divided by 8), a softmax over the 200 actions
  shifted by the row maximum, the weighted sum of the values, and the heads put back side by side. Each stage is
  read at explicit coordinates, bottom-up, until the last stage at row b and column c is the specification's
  resultAt b c.
-/
import proofs.«173114_j42494406426931_2_alg».proof.Proof.Gen.ReferenceIdeal.Read
import proofs.«173114_j42494406426931_2_alg».proof.Proof.Spec
import Idealize.ShloMosaic.Lib.ValueIdx
import Idealize.ShloMosaic.PureOps.Ideal.Laws
import Idealize.ShloMosaic.Lib.Pipeline.Value

noncomputable section

namespace Cert.Attention.Ref

open Idealize.ShloMosaic Idealize.ShloMosaic.ValueIdx Cert.ReferenceIdeal Cert.ReferenceIdeal.Gen Cert.ReferenceIdeal.Read Cert.Attention

section Stages

variable (x0 : (⟨S8192x1x64, .f32⟩ : BufTy).Contents (Elt Ideal)) (x1 : (⟨S8192x200x64, .f32⟩ : BufTy).Contents (Elt Ideal))
  (x2 x3 x4 : (⟨S64x64, .f32⟩ : BufTy).Contents (Elt Ideal))

/-- The projected query row of batch row b. -/
abbrev qRow (b : Fin 8192) : Fin 64 → EReal := proj (fun j => x0 (ix3 b 0 j)) x2
/-- The projected key rows of batch row b. -/
abbrev kRows (b : Fin 8192) : Fin 200 → Fin 64 → EReal := fun k => proj (fun j => x1 (ix3 b k j)) x3
/-- The projected value rows of batch row b. -/
abbrev vRows (b : Fin 8192) : Fin 200 → Fin 64 → EReal := fun k => proj (fun j => x1 (ix3 b k j)) x4
/-- Head h's 200 scores at batch row b. -/
abbrev sc (b : Fin 8192) (h : Fin 4) : Fin 200 → EReal := score (qRow x0 x2 b) (kRows x1 x3 b) h

/-! ## The three projections -/

theorem v0_at (b : Fin 8192) (d : Fin 64) :
    val_main_v0 (F := Ideal) x0 x2 (ix3 b 0 d) = qRow x0 x2 b d := by
  rw [val_main_v0_apply]
  unfold qRow proj
  refine Finset.sum_congr rfl fun j _ => ?_
  have el : lidx_main_v0 (ix3 b 0 d) j = ix3 b 0 j := funext fun a => Fin.ext (by
    match a with
    | ⟨0, _⟩ => rfl
    | ⟨1, _⟩ => rfl
    | ⟨2, _⟩ => rfl)
  have er : ridx_main_v0 (ix3 b 0 d) j = ix2 j d := funext fun a => Fin.ext (by
    match a with
    | ⟨0, _⟩ => rfl
    | ⟨1, _⟩ => rfl)
  rw [el, er]

theorem v1_at (b : Fin 8192) (k : Fin 200) (d : Fin 64) :
    val_main_v1 (F := Ideal) x1 x3 (ix3 b k d) = kRows x1 x3 b k d := by
  rw [val_main_v1_apply]
  unfold kRows proj
  refine Finset.sum_congr rfl fun j _ => ?_
  have el : lidx_main_v1 (ix3 b k d) j = ix3 b k j := funext fun a => Fin.ext (by
    match a with
    | ⟨0, _⟩ => rfl
    | ⟨1, _⟩ => rfl
    | ⟨2, _⟩ => rfl)
  have er : ridx_main_v1 (ix3 b k d) j = ix2 j d := funext fun a => Fin.ext (by
    match a with
    | ⟨0, _⟩ => rfl
    | ⟨1, _⟩ => rfl)
  rw [el, er]

theorem v2_at (b : Fin 8192) (k : Fin 200) (d : Fin 64) :
    val_main_v2 (F := Ideal) x1 x4 (ix3 b k d) = vRows x1 x4 b k d := by
  rw [val_main_v2_apply]
  unfold vRows proj
  refine Finset.sum_congr rfl fun j _ => ?_
  have el : lidx_main_v2 (ix3 b k d) j = ix3 b k j := funext fun a => Fin.ext (by
    match a with
    | ⟨0, _⟩ => rfl
    | ⟨1, _⟩ => rfl
    | ⟨2, _⟩ => rfl)
  have er : ridx_main_v2 (ix3 b k d) j = ix2 j d := funext fun a => Fin.ext (by
    match a with
    | ⟨0, _⟩ => rfl
    | ⟨1, _⟩ => rfl)
  rw [el, er]

/-! ## The heads: column e of head h is projected column 16 h + e -/

theorem v4_at (h : Fin 4) (b : Fin 8192) (e : Fin 16) :
    val_main_v4 (F := Ideal) x0 x2 (ix4 h b 0 e) = qRow x0 x2 b (headCol h e) := by
  rw [val_main_v4_apply, val_main_v3_apply]
  have hi : idx_main_v3 (idx_main_v4 (ix4 h b 0 e)) = ix3 b 0 (headCol h e) := funext fun a => Fin.ext (by
    have hh := h.isLt; have he := e.isLt
    match a with
    | ⟨0, _⟩ => show (((b.val * 1 + 0) * 4 + h.val) * 16 + e.val) / 64 = b.val; omega
    | ⟨1, _⟩ => rfl
    | ⟨2, _⟩ => show (((b.val * 1 + 0) * 4 + h.val) * 16 + e.val) % 64 = h.val * 16 + e.val; omega)
  rw [hi]
  exact v0_at x0 x2 b (headCol h e)

theorem v6_at (h : Fin 4) (b : Fin 8192) (k : Fin 200) (e : Fin 16) :
    val_main_v6 (F := Ideal) x1 x3 (ix4 h b k e) = kRows x1 x3 b k (headCol h e) := by
  rw [val_main_v6_apply, val_main_v5_apply]
  have hi : idx_main_v5 (idx_main_v6 (ix4 h b k e)) = ix3 b k (headCol h e) := funext fun a => Fin.ext (by
    have hh := h.isLt; have he := e.isLt; have hk := k.isLt
    match a with
    | ⟨0, _⟩ => show (((b.val * 200 + k.val) * 4 + h.val) * 16 + e.val) / 12800 = b.val; omega
    | ⟨1, _⟩ => show (((b.val * 200 + k.val) * 4 + h.val) * 16 + e.val) / 64 % 200 = k.val; omega
    | ⟨2, _⟩ => show (((b.val * 200 + k.val) * 4 + h.val) * 16 + e.val) % 64 = h.val * 16 + e.val; omega)
  rw [hi]
  exact v1_at x1 x3 b k (headCol h e)

theorem v8_at (h : Fin 4) (b : Fin 8192) (k : Fin 200) (e : Fin 16) :
    val_main_v8 (F := Ideal) x1 x4 (ix4 h b k e) = vRows x1 x4 b k (headCol h e) := by
  rw [val_main_v8_apply, val_main_v7_apply]
  have hi : idx_main_v7 (idx_main_v8 (ix4 h b k e)) = ix3 b k (headCol h e) := funext fun a => Fin.ext (by
    have hh := h.isLt; have he := e.isLt; have hk := k.isLt
    match a with
    | ⟨0, _⟩ => show (((b.val * 200 + k.val) * 4 + h.val) * 16 + e.val) / 12800 = b.val; omega
    | ⟨1, _⟩ => show (((b.val * 200 + k.val) * 4 + h.val) * 16 + e.val) / 64 % 200 = k.val; omega
    | ⟨2, _⟩ => show (((b.val * 200 + k.val) * 4 + h.val) * 16 + e.val) % 64 = h.val * 16 + e.val; omega)
  rw [hi]
  exact v2_at x1 x4 b k (headCol h e)

/-! ## The scores -/

theorem v11_at (h : Fin 4) (b : Fin 8192) (k : Fin 200) :
    val_main_v11 (F := Ideal) x0 x1 x2 x3 (ix4 h b 0 k) = sc x0 x1 x2 x3 b h k := by
  rw [val_main_v11_apply, val_main_v9_apply, val_main_v10_apply, val_main_cst_apply]
  unfold sc score
  rw [Ideal.hostDivf_def, Ideal.ofBits_def]
  refine congrArg (fun s => Ideal.div s (Ideal.ofBits .f32 0x41000000#32)) (Finset.sum_congr rfl fun e _ => ?_)
  have el : lidx_main_v9 (ix4 h b 0 k) e = ix4 h b 0 e := funext fun a => Fin.ext (by
    match a with
    | ⟨0, _⟩ => rfl
    | ⟨1, _⟩ => rfl
    | ⟨2, _⟩ => rfl
    | ⟨3, _⟩ => rfl)
  have er : ridx_main_v9 (ix4 h b 0 k) e = ix4 h b k e := funext fun a => Fin.ext (by
    match a with
    | ⟨0, _⟩ => rfl
    | ⟨1, _⟩ => rfl
    | ⟨2, _⟩ => rfl
    | ⟨3, _⟩ => rfl)
  rw [el, er, v4_at, v6_at]

/-! ## The row maximum -/

/-- The max-reduce over the 200 actions is the fold of max from -∞ over a head's scores. -/
theorem v12_at (h : Fin 4) (b : Fin 8192) :
    val_main_v12 (F := Ideal) x0 x1 x2 x3 (ix3 h b 0) = rowMax (sc x0 x1 x2 x3 b h) := by
  have hR : S4x8192x1x200.Reduces [3] S4x8192x1 := by decide
  unfold val_main_v12
  rw [Host.reduce_eq_fold_single FloatOps.maximumf _ _ reducesTo_S4x8192x1x200_S4x8192x1_d3 hR h_S_ _]
  have hf : (val_main_v11 (F := Ideal) x0 x1 x2 x3 ∘ hR.lift (ix3 h b 0)) = sc x0 x1 x2 x3 b h := funext fun k => by
    have hl : hR.lift (ix3 h b 0) k = ix4 h b 0 k := funext fun a => Fin.ext (by
      match a with
      | ⟨0, _⟩ => rfl
      | ⟨1, _⟩ => rfl
      | ⟨2, _⟩ => rfl
      | ⟨3, _⟩ => rfl)
    show val_main_v11 (F := Ideal) x0 x1 x2 x3 (hR.lift (ix3 h b 0) k) = _
    rw [hl]
    exact v11_at x0 x1 x2 x3 h b k
  rw [hf]
  rfl

/-- Taking the maximum with -∞ once more changes nothing: the fold started there. -/
theorem v14_at (h : Fin 4) (b : Fin 8192) :
    val_main_v14 (F := Ideal) x0 x1 x2 x3 (ix3 h b 0) = rowMax (sc x0 x1 x2 x3 b h) := by
  rw [val_main_v14_apply, val_main_v13_apply, val_main_cst_1_apply, v12_at, Ideal.maximumf_def, Ideal.ofBits_def]
  refine max_eq_right ?_
  unfold rowMax
  exact (Finset.le_fold_max _).mpr (Or.inl le_rfl)

theorem v16_at (h : Fin 4) (b : Fin 8192) (k : Fin 200) :
    val_main_v16 (F := Ideal) x0 x1 x2 x3 (ix4 h b 0 k) = rowMax (sc x0 x1 x2 x3 b h) := by
  rw [val_main_v16_apply, val_main_v15_apply]
  have hi : idx_main_v15 (idx_main_v16 (ix4 h b 0 k)) = ix3 h b 0 := funext fun a => Fin.ext (by
    match a with
    | ⟨0, _⟩ => rfl
    | ⟨1, _⟩ => rfl
    | ⟨2, _⟩ => rfl)
  rw [hi]
  exact v14_at x0 x1 x2 x3 h b

/-! ## The softmax -/

theorem v18_at (h : Fin 4) (b : Fin 8192) (k : Fin 200) :
    val_main_v18 (F := Ideal) x0 x1 x2 x3 (ix4 h b 0 k)
      = Ideal.exp (sc x0 x1 x2 x3 b h k - rowMax (sc x0 x1 x2 x3 b h)) := by
  rw [val_main_v18_apply, val_main_v17_apply, v11_at, v16_at, Ideal.hostUnary_exp_def, Ideal.subf_def]

theorem v19_at (h : Fin 4) (b : Fin 8192) :
    val_main_v19 (F := Ideal) x0 x1 x2 x3 (ix3 h b 0)
      = ∑ k : Fin 200, Ideal.exp (sc x0 x1 x2 x3 b h k - rowMax (sc x0 x1 x2 x3 b h)) := by
  rw [val_main_v19_apply, val_main_cst_2_apply, Ideal.ofBits_def, Ideal.ofBits_zero_f32, zero_add]
  refine Finset.sum_congr rfl fun k _ => ?_
  have hi : idx_main_v19 (ix3 h b 0) k = ix4 h b 0 k := funext fun a => Fin.ext (by
    match a with
    | ⟨0, _⟩ => rfl
    | ⟨1, _⟩ => rfl
    | ⟨2, _⟩ => rfl
    | ⟨3, _⟩ => rfl)
  rw [hi]
  exact v18_at x0 x1 x2 x3 h b k

theorem v21_at (h : Fin 4) (b : Fin 8192) (k : Fin 200) :
    val_main_v21 (F := Ideal) x0 x1 x2 x3 (ix4 h b 0 k)
      = ∑ k' : Fin 200, Ideal.exp (sc x0 x1 x2 x3 b h k' - rowMax (sc x0 x1 x2 x3 b h)) := by
  rw [val_main_v21_apply, val_main_v20_apply]
  have hi : idx_main_v20 (idx_main_v21 (ix4 h b 0 k)) = ix3 h b 0 := funext fun a => Fin.ext (by
    match a with
    | ⟨0, _⟩ => rfl
    | ⟨1, _⟩ => rfl
    | ⟨2, _⟩ => rfl)
  rw [hi]
  exact v19_at x0 x1 x2 x3 h b

theorem v22_at (h : Fin 4) (b : Fin 8192) (k : Fin 200) :
    val_main_v22 (F := Ideal) x0 x1 x2 x3 (ix4 h b 0 k) = softmax (sc x0 x1 x2 x3 b h) k := by
  rw [val_main_v22_apply, v18_at, v21_at, Ideal.hostDivf_def]
  rfl

/-! ## The weighted values, and the heads side by side -/

theorem v23_at (h : Fin 4) (b : Fin 8192) (e : Fin 16) :
    val_main_v23 (F := Ideal) x0 x1 x2 x3 x4 (ix4 h b 0 e)
      = ∑ k : Fin 200, softmax (sc x0 x1 x2 x3 b h) k * vRows x1 x4 b k (headCol h e) := by
  rw [val_main_v23_apply]
  refine Finset.sum_congr rfl fun k _ => ?_
  have el : lidx_main_v23 (ix4 h b 0 e) k = ix4 h b 0 k := funext fun a => Fin.ext (by
    match a with
    | ⟨0, _⟩ => rfl
    | ⟨1, _⟩ => rfl
    | ⟨2, _⟩ => rfl
    | ⟨3, _⟩ => rfl)
  have er : ridx_main_v23 (ix4 h b 0 e) k = ix4 h b k e := funext fun a => Fin.ext (by
    match a with
    | ⟨0, _⟩ => rfl
    | ⟨1, _⟩ => rfl
    | ⟨2, _⟩ => rfl
    | ⟨3, _⟩ => rfl)
  rw [el, er, v22_at, v8_at]

/-- Output column c is column c mod 16 of head c / 16, and 16 (c / 16) + c mod 16 = c. -/
theorem v25_at (b : Fin 8192) (c : Fin 64) :
    val_main_v25 (F := Ideal) x0 x1 x2 x3 x4 (ix2 b c) = resultAt x0 x1 x2 x3 x4 b c := by
  rw [val_main_v25_apply, val_main_v24_apply]
  have hc := c.isLt
  have hi : idx_main_v24 (idx_main_v25 (ix2 b c))
      = ix4 (headOf c) b 0 (⟨c.val % 16, Nat.mod_lt _ (by decide)⟩ : Fin 16) := funext fun a => Fin.ext (by
    match a with
    | ⟨0, _⟩ => show (b.val * 64 + c.val) / 16 % 4 = c.val / 16; omega
    | ⟨1, _⟩ => show (b.val * 64 + c.val) / 64 = b.val; omega
    | ⟨2, _⟩ => rfl
    | ⟨3, _⟩ => show (b.val * 64 + c.val) % 16 = c.val % 16; omega)
  rw [hi, v23_at]
  have hcol : headCol (headOf c) (⟨c.val % 16, Nat.mod_lt _ (by decide)⟩ : Fin 16) = c :=
    Fin.ext (by show c.val / 16 * 16 + c.val % 16 = c.val; omega)
  rw [hcol]
  rfl

end Stages

/-- The reference program's result is the specification's attention function. -/
theorem reference_eq (x0 : (⟨S8192x1x64, .f32⟩ : BufTy).Contents (Elt Ideal)) (x1 : (⟨S8192x200x64, .f32⟩ : BufTy).Contents (Elt Ideal))
    (x2 x3 x4 : (⟨S64x64, .f32⟩ : BufTy).Contents (Elt Ideal)) :
    Cert.ReferenceIdeal.Read.val_main_v25 (F := Ideal) x0 x1 x2 x3 x4 = Cert.Attention.result x0 x1 x2 x3 x4 := by
  funext i
  exact (congrArg (val_main_v25 (F := Ideal) x0 x1 x2 x3 x4) (eq_ix2 i)).trans (v25_at x0 x1 x2 x3 x4 (i 0) (i 1))

end Cert.Attention.Ref

end
-- ==== Proof.lean ====
/-
  The five claims for the single-query multi-head attention kernel and its reference.

  The two frame claims of the kernel — as printed, and read on the extended reals — are the generated frame proofs:
  every run terminates and leaves the five argument arrays as launched. The reference's frame claim is its generated
  run with the result array dropped from the post. The kernel read on the extended reals is the kernel's own text
  with no operation rewritten, so the claim relating the two readings is `True`.

  The value claim. From memories that agree on the five arguments, the kernel's output array ends at
  `Cert.Attention.result` of its arguments: each of the 128 grid points writes its 64 rows of that function, and the
  128 blocks tile the 8192 rows. The reference's result array ends at the same function of its arguments, read
  operation by operation. The arguments agree, so the two arrays are equal, entry by entry on the extended reals; and
  both runs leave the arguments unchanged.
-/
import proofs.«173114_j42494406426931_2_alg».proof.Defs
import proofs.«173114_j42494406426931_2_alg».proof.Proof.Gen.Kernel
import proofs.«173114_j42494406426931_2_alg».proof.Proof.Gen.Kernel.Skeleton
import proofs.«173114_j42494406426931_2_alg».proof.Proof.Gen.Kernel.Launch
import proofs.«173114_j42494406426931_2_alg».proof.Proof.Gen.Kernel.Points
import proofs.«173114_j42494406426931_2_alg».proof.Proof.Gen.Kernel.Frame
import proofs.«173114_j42494406426931_2_alg».proof.Proof.Gen.KernelIdeal
import proofs.«173114_j42494406426931_2_alg».proof.Proof.Gen.KernelIdeal.Skeleton
import proofs.«173114_j42494406426931_2_alg».proof.Proof.Gen.KernelIdeal.Launch
import proofs.«173114_j42494406426931_2_alg».proof.Proof.Gen.KernelIdeal.Points
import proofs.«173114_j42494406426931_2_alg».proof.Proof.Gen.KernelIdeal.Frame
import proofs.«173114_j42494406426931_2_alg».proof.Proof.Gen.ReferenceIdeal
import proofs.«173114_j42494406426931_2_alg».proof.Proof.Gen.KernelIdeal.Value
import proofs.«173114_j42494406426931_2_alg».proof.Proof.Gen.ReferenceIdeal.Run
import proofs.«173114_j42494406426931_2_alg».proof.Proof.Gen.ReferenceIdeal.Read
import proofs.«173114_j42494406426931_2_alg».proof.Proof.Gen.Pre_finite_inputs
import proofs.«173114_j42494406426931_2_alg».proof.Proof.KernelArray
import proofs.«173114_j42494406426931_2_alg».proof.Proof.RefIsResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read on the extended reals runs and leaves its arguments unchanged. -/
theorem frame_kernelIdeal : Cert.frame_KernelIdeal := fun m ρ _ => Cert.KernelIdeal.Gen.frame m ρ

/-- The reference runs and leaves its arguments unchanged: its run, the result array dropped from the post. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- On the extended reals both programs end at the attention result of the shared arguments: the kernel's output
    array block by block over the grid, the reference's result operation by operation. -/
theorem algebraic : Cert.algebraic_KernelIdeal_ReferenceIdeal := by
  intro m ρ m' ρ' _ hagree
  refine ⟨fun c => Cert.Attention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Attention.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Attention.Ref.reference_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
